-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x256 : Shape := ⟨4, ![64, 1, 512, 256]⟩
abbrev S64x8 : Shape := ⟨2, ![64, 8]⟩
abbrev S512 : Shape := ⟨1, ![512]⟩
abbrev S256 : Shape := ⟨1, ![256]⟩
abbrev S64 : Shape := ⟨1, ![64]⟩
abbrev S_ : Shape := ⟨0, ![]⟩

class Facts : Prop where
  bcast_S_S64x1x512x256 : S_.BroadcastsInDim S64x1x512x256 (![] : Fin 0 → Fin S64x1x512x256.rank)
  reducesTo_S64x1x512x256_S_d0_1_2_3 : S64x1x512x256.ReducesTo [0, 1, 2, 3] S_
  h_S_ : 0 < S_.numel
  bcast_S_S64x8 : S_.BroadcastsInDim S64x8 (![] : Fin 0 → Fin S64x8.rank)
  reducesTo_S64x8_S_d0_1 : S64x8.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x1x512x256 .f32) (main_arg1 : FVec F S64x8 .f32) (main_arg2 : FVec F S64x8 .f32) (main_arg3 : FVec F S512 .f32) (main_arg4 : FVec F S256 .f32) (main_arg5 : IVec S64 32) : IVec S_ 1 :=
  let main_v0 : FVec F S64x1x512x256 .f32 := Host.absf main_arg0
  let main_cst : FVec F S_ .f32 := constant S_ .f32 0x7F800000#32
  let main_v1 : FVec F S64x1x512x256 .f32 := broadcastInDim S64x1x512x256 ![] bcast_S_S64x1x512x256 main_cst
  let main_v2 : IVec S64x1x512x256 1 := cmpf .olt main_v0 main_v1
  let main_c : IVec S_ 1 := constantI S_ 1 1#1
  let main_v3 : IVec S_ 1 := (fun x v => Host.reduce IntOp.andi x v reducesTo_S64x1x512x256_S_d0_1_2_3 h_S_) main_v2 main_c
  let main_v4 : FVec F S64x8 .f32 := Host.absf main_arg1
  let main_cst_0 : FVec F S_ .f32 := constant S_ .f32 0x7F800000#32
  let main_v5 : FVec F S64x8 .f32 := broadcastInDim S64x8 ![] bcast_S_S64x8 main_cst_0
  let main_v6 : IVec S64x8 1 := cmpf .olt main_v4 main_v5
  let main_c_1 : IVec S_ 1 := constantI S_ 1 1#1
  let main_v7 : IVec S_ 1 := (fun x v => Host.reduce IntOp.andi x v reducesTo_S64x8_S_d0_1 h_S_) main_v6 main_c_1
  let main_v8 : IVec S_ 1 := andi main_v3 main_v7
  let main_v9 : FVec F S64x8 .f32 := Host.absf main_arg2
  let main_cst_2 : FVec F S_ .f32 := constant S_ .f32 0x7F800000#32
  let main_v10 : FVec F S64x8 .f32 := broadcastInDim S64x8 ![] bcast_S_S64x8 main_cst_2
  let main_v11 : IVec S64x8 1 := cmpf .olt main_v9 main_v10
  let main_c_3 : IVec S_ 1 := constantI S_ 1 1#1
  let main_v12 : IVec S_ 1 := (fun x v => Host.reduce IntOp.andi x v reducesTo_S64x8_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S64x1x512x256 : Shape := ⟨4, ![64, 1, 512, 256]⟩
abbrev S64x8 : Shape := ⟨2, ![64, 8]⟩
abbrev S512 : Shape := ⟨1, ![512]⟩
abbrev S256 : Shape := ⟨1, ![256]⟩
abbrev S64 : Shape := ⟨1, ![64]⟩
abbrev S1 : Shape := ⟨1, ![1]⟩
abbrev S_ : Shape := ⟨0, ![]⟩
abbrev S1x1x512 : Shape := ⟨3, ![1, 1, 512]⟩
abbrev S64x8x1 : Shape := ⟨3, ![64, 8, 1]⟩
abbrev S64x8x512 : Shape := ⟨3, ![64, 8, 512]⟩
abbrev S1x1x256 : Shape := ⟨3, ![1, 1, 256]⟩
abbrev S64x8x256 : Shape := ⟨3, ![64, 8, 256]⟩
abbrev S8 : Shape := ⟨1, ![8]⟩
abbrev S1x8 : Shape := ⟨2, ![1, 8]⟩
abbrev S64x1 : Shape := ⟨2, ![64, 1]⟩
abbrev S64x512x256 : Shape := ⟨3, ![64, 512, 256]⟩
abbrev S4x8x128 : Shape := ⟨3, ![4, 8, 128]⟩
abbrev S16x128x256 : Shape := ⟨3, ![16, 128, 256]⟩
abbrev S16x8x128 : Shape := ⟨3, ![16, 8, 128]⟩
abbrev S16x8x256 : Shape := ⟨3, ![16, 8, 256]⟩
abbrev S1x8x128 : Shape := ⟨3, ![1, 8, 128]⟩
abbrev S16x1x128 : Shape := ⟨3, ![16, 1, 128]⟩
abbrev S16x128 : Shape := ⟨2, ![16, 128]⟩
abbrev S16x1x256 : Shape := ⟨3, ![16, 1, 256]⟩
abbrev S16x256 : Shape := ⟨2, ![16, 256]⟩
abbrev S16x128x1 : Shape := ⟨3, ![16, 128, 1]⟩
abbrev S16x1 : Shape := ⟨2, ![16, 1]⟩
abbrev S16x1x1 : Shape := ⟨3, ![16, 1, 1]⟩
abbrev S1x16x1x1 : Shape := ⟨4, ![1, 16, 1, 1]⟩
abbrev S1x1x1x1 : Shape := ⟨4, ![1, 1, 1, 1]⟩
abbrev S4x1x1 : Shape := ⟨3, ![4, 1, 1]⟩
abbrev S4 : Shape := ⟨1, ![4]⟩

abbrev nBuf : Space → Nat
  | .hbm => 68
  | .vmem => 9
  | .smem => 0
  | _ => 0

abbrev bufTy : (tb : Table) → Fin (tcTables nBuf tb) → BufTy
  | .hbm, ⟨0, _⟩ => ⟨S64x1x512x256, .f32⟩
  | .hbm, ⟨1, _⟩ => ⟨S64x8, .f32⟩
  | .hbm, ⟨2, _⟩ => ⟨S64x8, .f32⟩
  | .hbm, ⟨3, _⟩ => ⟨S512, .f32⟩
  | .hbm, ⟨4, _⟩ => ⟨S256, .f32⟩
  | .hbm, ⟨5, _⟩ => ⟨S64, .i32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x1x512, .f32⟩
  | .hbm, ⟨25, _⟩ => ⟨S64x8x1, .f32⟩
  | .hbm, ⟨26, _⟩ => ⟨S64x8x512, .f32⟩
  | .hbm, ⟨27, _⟩ => ⟨S64x8x512, .f32⟩
  | .hbm, ⟨28, _⟩ => ⟨S64x8x512, .f32⟩
  | .hbm, ⟨29, _⟩ => ⟨S64x8x512, .f32⟩
  | .hbm, ⟨30, _⟩ => ⟨S64x8x512, .f32⟩
  | .hbm, ⟨31, _⟩ => ⟨S64x8x512, .f32⟩
  | .hbm, ⟨32, _⟩ => ⟨S1x1x256, .f32⟩
  | .hbm, ⟨33, _⟩ => ⟨S64x8x1, .f32⟩
  | .hbm, ⟨34, _⟩ => ⟨S64x8x256, .f32⟩
  | .hbm, ⟨35, _⟩ => ⟨S64x8x256, .f32⟩
  | .hbm, ⟨36, _⟩ => ⟨S64x8x256, .f32⟩
  | .hbm, ⟨37, _⟩ => ⟨S64x8x256, .f32⟩
  | .hbm, ⟨38, _⟩ => ⟨S64x8x256, .f32⟩
  | .hbm, ⟨39, _⟩ => ⟨S64x8x256, .f32⟩
  | .hbm, ⟨40, _⟩ => ⟨S_, .f32⟩
  | .hbm, ⟨41, _⟩ => ⟨S64x8x512, .f32⟩
  | .hbm, ⟨42, _⟩ => ⟨S64x8x512, .f32⟩
  | .hbm, ⟨43, _⟩ => ⟨S64x8x512, .f32⟩
  | .hbm, ⟨44, _⟩ => ⟨S_, .f32⟩
  | .hbm, ⟨45, _⟩ => ⟨S64x8x256, .f32⟩
  | .hbm, ⟨46, _⟩ => ⟨S64x8x256, .f32⟩
  | .hbm, ⟨47, _⟩ => ⟨S64x8x256, .f32⟩
  | .hbm, ⟨48, _⟩ => ⟨S8, .i32⟩
  | .hbm, ⟨49, _⟩ => ⟨S1x8, .i32⟩
  | .hbm, ⟨50, _⟩ => ⟨S64x1, .i32⟩
  | .hbm, ⟨51, _⟩ => ⟨S64x8, .i32⟩
  | .hbm, ⟨52, _⟩ => ⟨S64x8, .i32⟩
  | .hbm, ⟨53, _⟩ => ⟨S64x8, .i1⟩
  | .hbm, ⟨54, _⟩ => ⟨S64x8x1, .i1⟩
  | .hbm, ⟨55, _⟩ => ⟨S_, .f32⟩
  | .hbm, ⟨56, _⟩ => ⟨S_, .f32⟩
  | .hbm, ⟨57, _⟩ => ⟨S64x8x512, .i1⟩
  | .hbm, ⟨58, _⟩ => ⟨S64x8x512, .f32⟩
  | .hbm, ⟨59, _⟩ => ⟨S64x8x512, .f32⟩
  | .hbm, ⟨60, _⟩ => ⟨S64x512x256, .f32⟩
  | .hbm, ⟨61, _⟩ => ⟨S4x8x128, .f32⟩
  | .hbm, ⟨62, _⟩ => ⟨S4x1x1, .f32⟩
  | .hbm, ⟨63, _⟩ => ⟨S4, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S16x128x256, .f32⟩
  | .local _ .vmem, ⟨1, _⟩ => ⟨S16x128x256, .f32⟩
  | .local _ .vmem, ⟨2, _⟩ => ⟨S16x8x128, .f32⟩
  | .local _ .vmem, ⟨3, _⟩ => ⟨S16x8x128, .f32⟩
  | .local _ .vmem, ⟨4, _⟩ => ⟨S16x8x256, .f32⟩
  | .local _ .vmem, ⟨5, _⟩ => ⟨S16x8x256, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | _, _ => ⟨S64x1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v127 : BitVec 1 := Scalar.cmpi .eq arg1 c3_i32
  let v128 : BitVec 32 := Scalar.extui v127
  let c0_i32_25 : BitVec 32 := 0#32
  let v129 : BitVec 1 := Scalar.cmpi .ne v128 c0_i32_25
  v129

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S512_S1_511 : S512.Slices ![511] S1
  shapeCasts_S1_S_ : S1.ShapeCasts S_
  slices_S512_S1_0 : S512.Slices ![0] S1
  slices_S256_S1_255 : S256.Slices ![255] S1
  slices_S256_S1_0 : S256.Slices ![0] S1
  bcast_S512_S1x1x512_2 : S512.BroadcastsInDim S1x1x512 (![2] : Fin 1 → Fin S1x1x512.rank)
  bcast_S64x8_S64x8x1_0_1 : S64x8.BroadcastsInDim S64x8x1 (![0, 1] : Fin 2 → Fin S64x8x1.rank)
  bcast_S1x1x512_S64x8x512_0_1_2 : S1x1x512.BroadcastsInDim S64x8x512 (![0, 1, 2] : Fin 3 → Fin S64x8x512.rank)
  bcast_S64x8x1_S64x8x512_0_1_2 : S64x8x1.BroadcastsInDim S64x8x512 (![0, 1, 2] : Fin 3 → Fin S64x8x512.rank)
  bcast_S_S64x8x512 : S_.BroadcastsInDim S64x8x512 (![] : Fin 0 → Fin S64x8x512.rank)
  bcast_S256_S1x1x256_2 : S256.BroadcastsInDim S1x1x256 (![2] : Fin 1 → Fin S1x1x256.rank)
  bcast_S1x1x256_S64x8x256_0_1_2 : S1x1x256.BroadcastsInDim S64x8x256 (![0, 1, 2] : Fin 3 → Fin S64x8x256.rank)
  bcast_S64x8x1_S64x8x256_0_1_2 : S64x8x1.BroadcastsInDim S64x8x256 (![0, 1, 2] : Fin 3 → Fin S64x8x256.rank)
  bcast_S_S64x8x256 : S_.BroadcastsInDim S64x8x256 (![] : Fin 0 → Fin S64x8x256.rank)
  bcast_S8_S1x8_1 : S8.BroadcastsInDim S1x8 (![1] : Fin 1 → Fin S1x8.rank)
  bcast_S64_S64x1_0 : S64.BroadcastsInDim S64x1 (![0] : Fin 1 → Fin S64x1.rank)
  bcast_S1x8_S64x8_0_1 : S1x8.BroadcastsInDim S64x8 (![0, 1] : Fin 2 → Fin S64x8.rank)
  bcast_S64x1_S64x8_0_1 : S64x1.BroadcastsInDim S64x8 (![0, 1] : Fin 2 → Fin S64x8.rank)
  shapeCasts_S64x1x512x256_S64x512x256 : S64x1x512x256.ShapeCasts S64x512x256
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  inb_S16x8x128_S16x8x128_0_0_0 : ∀ a, (![0, 0, 0] : Fin 3 → Nat) a + S16x8x128.size a ≤ S16x8x128.size a
  h_S16x8x128 : 0 < S16x8x128.numel
  shapeCasts_S16x8x128_S16x8x128 : S16x8x128.ShapeCasts S16x8x128
  inb_S16x8x256_S16x8x256_0_0_0 : ∀ a, (![0, 0, 0] : Fin 3 → Nat) a + S16x8x256.size a ≤ S16x8x256.size a
  h_S16x8x256 : 0 < S16x8x256.numel
  shapeCasts_S16x8x256_S16x8x256 : S16x8x256.ShapeCasts S16x8x256
  slices_S16x8x128_o0_0_0_S16x1x128 : S16x8x128.Slices ![0, 0, 0] S16x1x128
  shapeCasts_S16x1x128_S16x128 : S16x1x128.ShapeCasts S16x128
  slices_S16x8x256_o0_0_0_S16x1x256 : S16x8x256.Slices ![0, 0, 0] S16x1x256
  shapeCasts_S16x1x256_S16x256 : S16x1x256.ShapeCasts S16x256
  shapeCasts_S16x128_S16x128x1 : S16x128.ShapeCasts S16x128x1
  shapeCasts_S16x256_S16x1x256 : S16x256.ShapeCasts S16x1x256
  broadcasts_S16x128x1_S16x128x256 : S16x128x1.Broadcasts S16x128x256
  broadcasts_S16x1x256_S16x128x256 : S16x1x256.Broadcasts S16x128x256
  slices_S16x8x128_o0_1_0_S16x1x128 : S16x8x128.Slices ![0, 1, 0] S16x1x128
  slices_S16x8x256_o0_1_0_S16x1x256 : S16x8x256.Slices ![0, 1, 0] S16x1x256
  slices_S16x8x128_o0_2_0_S16x1x128 : S16x8x128.Slices ![0, 2, 0] S16x1x128
  slices_S16x8x256_o0_2_0_S16x1x256 : S16x8x256.Slices ![0, 2, 0] S16x1x256
  slices_S16x8x128_o0_3_0_S16x1x128 : S16x8x128.Slices ![0, 3, 0] S16x1x128
  slices_S16x8x256_o0_3_0_S16x1x256 : S16x8x256.Slices ![0, 3, 0] S16x1x256
  slices_S16x8x128_o0_4_0_S16x1x128 : S16x8x128.Slices ![0, 4, 0] S16x1x128
  slices_S16x8x256_o0_4_0_S16x1x256 : S16x8x256.Slices ![0, 4, 0] S16x1x256
  slices_S16x8x128_o0_5_0_S16x1x128 : S16x8x128.Slices ![0, 5, 0] S16x1x128
  slices_S16x8x256_o0_5_0_S16x1x256 : S16x8x256.Slices ![0, 5, 0] S16x1x256
  slices_S16x8x128_o0_6_0_S16x1x128 : S16x8x128.Slices ![0, 6, 0] S16x1x128
  slices_S16x8x256_o0_6_0_S16x1x256 : S16x8x256.Slices ![0, 6, 0] S16x1x256
  slices_S16x8x128_o0_7_0_S16x1x128 : S16x8x128.Slices ![0, 7, 0] S16x1x128
  slices_S16x8x256_o0_7_0_S16x1x256 : S16x8x256.Slices ![0, 7, 0] S16x1x256
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  reduces_S16x128x256_S16x128 : S16x128x256.Reduces [2] S16x128
  reduces_S16x128x1_S16x1 : S16x128x1.Reduces [1] S16x1
  shapeCasts_S16x1_S16x1x1 : S16x1.ShapeCasts S16x1x1
  shapeCasts_S16x1x1_S1x16x1x1 : S16x1x1.ShapeCasts S1x16x1x1
  reduces_S1x16x1x1_S1 : S1x16x1x1.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S64x512x256.size a
  hwx0_0 : ∀ i : grid0.Coords, EltTy.bits .f32 = 32 ∨ (Rect.block (s := S64x512x256) S16x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8x128.size a ≤ S64x8x512.size a
  hwx0_1 : ∀ i : grid0.Coords, EltTy.bits .f32 = 32 ∨ (Rect.block (s := S64x8x512) S16x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8x256.size a ≤ S64x8x256.size a
  hwx0_2 : ∀ i : grid0.Coords, EltTy.bits .f32 = 32 ∨ (Rect.block (s := S64x8x256) S16x8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S4x8x128.size a
  hwx0_3 : ∀ i : grid0.Coords, EltTy.bits .f32 = 32 ∨ (Rect.block (s := S4x8x128) S1x8x128.size (cc0_transform_3 i) (hinb0_3 i)).WholeWords (EltTy.packing .f32)

variable [Facts₀]

abbrev win0_0 : Pipeline.Window sig grid0 :=
  Pipeline.Window.ofSpec (Memref.whole main_v44) S16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S16x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S16x8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x1x512x256 : Shape := ⟨4, ![64, 1, 512, 256]⟩
abbrev S64x8 : Shape := ⟨2, ![64, 8]⟩
abbrev S512 : Shape := ⟨1, ![512]⟩
abbrev S256 : Shape := ⟨1, ![256]⟩
abbrev S64 : Shape := ⟨1, ![64]⟩
abbrev S1 : Shape := ⟨1, ![1]⟩
abbrev S_ : Shape := ⟨0, ![]⟩
abbrev S1x1x512 : Shape := ⟨3, ![1, 1, 512]⟩
abbrev S64x8x1 : Shape := ⟨3, ![64, 8, 1]⟩
abbrev S64x8x512 : Shape := ⟨3, ![64, 8, 512]⟩
abbrev S1x1x256 : Shape := ⟨3, ![1, 1, 256]⟩
abbrev S64x8x256 : Shape := ⟨3, ![64, 8, 256]⟩
abbrev S64x8x512x1 : Shape := ⟨4, ![64, 8, 512, 1]⟩
abbrev S64x8x1x256 : Shape := ⟨4, ![64, 8, 1, 256]⟩
abbrev S64x8x512x256 : Shape := ⟨4, ![64, 8, 512, 256]⟩
abbrev S8 : Shape := ⟨1, ![8]⟩
abbrev S64x1 : Shape := ⟨2, ![64, 1]⟩
abbrev S1x8 : Shape := ⟨2, ![1, 8]⟩
abbrev S64x8x1x1 : Shape := ⟨4, ![64, 8, 1, 1]⟩
abbrev S64x512x256 : Shape := ⟨3, ![64, 512, 256]⟩

abbrev nBuf : Space → Nat
  | .hbm => 102
  | .vmem => 0
  | .smem => 0
  | _ => 0

abbrev bufTy : (tb : Table) → Fin (tcTables nBuf tb) → BufTy
  | .hbm, ⟨0, _⟩ => ⟨S64x1x512x256, .f32⟩
  | .hbm, ⟨1, _⟩ => ⟨S64x8, .f32⟩
  | .hbm, ⟨2, _⟩ => ⟨S64x8, .f32⟩
  | .hbm, ⟨3, _⟩ => ⟨S512, .f32⟩
  | .hbm, ⟨4, _⟩ => ⟨S256, .f32⟩
  | .hbm, ⟨5, _⟩ => ⟨S64, .i32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x1x512, .f32⟩
  | .hbm, ⟨25, _⟩ => ⟨S64x8x1, .f32⟩
  | .hbm, ⟨26, _⟩ => ⟨S64x8x512, .f32⟩
  | .hbm, ⟨27, _⟩ => ⟨S64x8x512, .f32⟩
  | .hbm, ⟨28, _⟩ => ⟨S64x8x512, .f32⟩
  | .hbm, ⟨29, _⟩ => ⟨S64x8x512, .f32⟩
  | .hbm, ⟨30, _⟩ => ⟨S64x8x512, .f32⟩
  | .hbm, ⟨31, _⟩ => ⟨S64x8x512, .f32⟩
  | .hbm, ⟨32, _⟩ => ⟨S1x1x256, .f32⟩
  | .hbm, ⟨33, _⟩ => ⟨S64x8x1, .f32⟩
  | .hbm, ⟨34, _⟩ => ⟨S64x8x256, .f32⟩
  | .hbm, ⟨35, _⟩ => ⟨S64x8x256, .f32⟩
  | .hbm, ⟨36, _⟩ => ⟨S64x8x256, .f32⟩
  | .hbm, ⟨37, _⟩ => ⟨S64x8x256, .f32⟩
  | .hbm, ⟨38, _⟩ => ⟨S64x8x256, .f32⟩
  | .hbm, ⟨39, _⟩ => ⟨S64x8x256, .f32⟩
  | .hbm, ⟨40, _⟩ => ⟨S64x8x512x1, .f32⟩
  | .hbm, ⟨41, _⟩ => ⟨S64x8x1x256, .f32⟩
  | .hbm, ⟨42, _⟩ => ⟨S64x8x512x256, .f32⟩
  | .hbm, ⟨43, _⟩ => ⟨S64x8x512x256, .f32⟩
  | .hbm, ⟨44, _⟩ => ⟨S64x8x512x256, .f32⟩
  | .hbm, ⟨45, _⟩ => ⟨S_, .f32⟩
  | .hbm, ⟨46, _⟩ => ⟨S64x8x512x256, .f32⟩
  | .hbm, ⟨47, _⟩ => ⟨S64x8x512x256, .f32⟩
  | .hbm, ⟨48, _⟩ => ⟨S64x8x512x256, .f32⟩
  | .hbm, ⟨49, _⟩ => ⟨S8, .i32⟩
  | .hbm, ⟨50, _⟩ => ⟨S64x1, .i32⟩
  | .hbm, ⟨51, _⟩ => ⟨S1x8, .i32⟩
  | .hbm, ⟨52, _⟩ => ⟨S64x8, .i32⟩
  | .hbm, ⟨53, _⟩ => ⟨S64x8, .i32⟩
  | .hbm, ⟨54, _⟩ => ⟨S64x8, .i1⟩
  | .hbm, ⟨55, _⟩ => ⟨S64x8x1x1, .i1⟩
  | .hbm, ⟨56, _⟩ => ⟨S_, .f32⟩
  | .hbm, ⟨57, _⟩ => ⟨S_, .f32⟩
  | .hbm, ⟨58, _⟩ => ⟨S64x8x512x256, .i1⟩
  | .hbm, ⟨59, _⟩ => ⟨S64x8x512x256, .f32⟩
  | .hbm, ⟨60, _⟩ => ⟨S64x8x512x256, .f32⟩
  | .hbm, ⟨61, _⟩ => ⟨S_, .f32⟩
  | .hbm, ⟨62, _⟩ => ⟨S64x512x256, .f32⟩
  | .hbm, ⟨63, _⟩ => ⟨S64x1x512x256, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S64x1x512x256, .f32⟩
  | .hbm, ⟨68, _⟩ => ⟨S64x1x512x256, .f32⟩
  | .hbm, ⟨69, _⟩ => ⟨S_, .f32⟩
  | .hbm, ⟨70, _⟩ => ⟨S64x1x512x256, .f32⟩
  | .hbm, ⟨71, _⟩ => ⟨S64x1x512x256, .f32⟩
  | .hbm, ⟨72, _⟩ => ⟨S_, .f32⟩
  | .hbm, ⟨73, _⟩ => ⟨S64x1x512x256, .f32⟩
  | .hbm, ⟨74, _⟩ => ⟨S64x1x512x256, .f32⟩
  | .hbm, ⟨75, _⟩ => ⟨S_, .f32⟩
  | .hbm, ⟨76, _⟩ => ⟨S64x1x512x256, .f32⟩
  | .hbm, ⟨77, _⟩ => ⟨S64x1x512x256, .f32⟩
  | .hbm, ⟨78, _⟩ => ⟨S_, .f32⟩
  | .hbm, ⟨79, _⟩ => ⟨S64x1x512x256, .f32⟩
  | .hbm, ⟨80, _⟩ => ⟨S64x1x512x256, .f32⟩
  | .hbm, ⟨81, _⟩ => ⟨S64x1x512x256, .f32⟩
  | .hbm, ⟨82, _⟩ => ⟨S64x1x512x256, .f32⟩
  | .hbm, ⟨83, _⟩ => ⟨S64x1x512x256, .f32⟩
  | .hbm, ⟨84, _⟩ => ⟨S_, .f32⟩
  | .hbm, ⟨85, _⟩ => ⟨S64x1x512x256, .f32⟩
  | .hbm, ⟨86, _⟩ => ⟨S64x1x512x256, .f32⟩
  | .hbm, ⟨87, _⟩ => ⟨S_, .f32⟩
  | .hbm, ⟨88, _⟩ => ⟨S64x1x512x256, .f32⟩
  | .hbm, ⟨89, _⟩ => ⟨S64x1x512x256, .f32⟩
  | .hbm, ⟨90, _⟩ => ⟨S_, .f32⟩
  | .hbm, ⟨91, _⟩ => ⟨S64x1x512x256, .f32⟩
  | .hbm, ⟨92, _⟩ => ⟨S64x1x512x256, .f32⟩
  | .hbm, ⟨93, _⟩ => ⟨S64x1x512x256, .f32⟩
  | .hbm, ⟨94, _⟩ => ⟨S64x1x512x256, .f32⟩
  | .hbm, ⟨95, _⟩ => ⟨S64x1x512x256, .f32⟩
  | .hbm, ⟨96, _⟩ => ⟨S64x1x512x256, .f32⟩
  | .hbm, ⟨97, _⟩ => ⟨S64x1x512x256, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S64x1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩

abbrev nD : Nat := 1
abbrev τ : Topo := Topo.v7x

variable {F : FTy → Type} [FloatOps F]

class Facts₀ : Prop where
  slices_S512_S1_511 : S512.Slices ![511] S1
  shapeCasts_S1_S_ : S1.ShapeCasts S_
  slices_S512_S1_0 : S512.Slices ![0] S1
  slices_S256_S1_255 : S256.Slices ![255] S1
  slices_S256_S1_0 : S256.Slices ![0] S1
  bcast_S512_S1x1x512_2 : S512.BroadcastsInDim S1x1x512 (![2] : Fin 1 → Fin S1x1x512.rank)
  bcast_S64x8_S64x8x1_0_1 : S64x8.BroadcastsInDim S64x8x1 (![0, 1] : Fin 2 → Fin S64x8x1.rank)
  bcast_S1x1x512_S64x8x512_0_1_2 : S1x1x512.BroadcastsInDim S64x8x512 (![0, 1, 2] : Fin 3 → Fin S64x8x512.rank)
  bcast_S64x8x1_S64x8x512_0_1_2 : S64x8x1.BroadcastsInDim S64x8x512 (![0, 1, 2] : Fin 3 → Fin S64x8x512.rank)
  bcast_S_S64x8x512 : S_.BroadcastsInDim S64x8x512 (![] : Fin 0 → Fin S64x8x512.rank)
  bcast_S256_S1x1x256_2 : S256.BroadcastsInDim S1x1x256 (![2] : Fin 1 → Fin S1x1x256.rank)
  bcast_S1x1x256_S64x8x256_0_1_2 : S1x1x256.BroadcastsInDim S64x8x256 (![0, 1, 2] : Fin 3 → Fin S64x8x256.rank)
  bcast_S64x8x1_S64x8x256_0_1_2 : S64x8x1.BroadcastsInDim S64x8x256 (![0, 1, 2] : Fin 3 → Fin S64x8x256.rank)
  bcast_S_S64x8x256 : S_.BroadcastsInDim S64x8x256 (![] : Fin 0 → Fin S64x8x256.rank)
  bcast_S64x8x512_S64x8x512x1_0_1_2 : S64x8x512.BroadcastsInDim S64x8x512x1 (![0, 1, 2] : Fin 3 → Fin S64x8x512x1.rank)
  bcast_S64x8x256_S64x8x1x256_0_1_3 : S64x8x256.BroadcastsInDim S64x8x1x256 (![0, 1, 3] : Fin 3 → Fin S64x8x1x256.rank)
  bcast_S64x8x512x1_S64x8x512x256_0_1_2_3 : S64x8x512x1.BroadcastsInDim S64x8x512x256 (![0, 1, 2, 3] : Fin 4 → Fin S64x8x512x256.rank)
  bcast_S64x8x1x256_S64x8x512x256_0_1_2_3 : S64x8x1x256.BroadcastsInDim S64x8x512x256 (![0, 1, 2, 3] : Fin 4 → Fin S64x8x512x256.rank)
  bcast_S_S64x8x512x256 : S_.BroadcastsInDim S64x8x512x256 (![] : Fin 0 → Fin S64x8x512x256.rank)
  bcast_S64_S64x1_0 : S64.BroadcastsInDim S64x1 (![0] : Fin 1 → Fin S64x1.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  bcast_S64x1_S64x8_0_1 : S64x1.BroadcastsInDim S64x8 (![0, 1] : Fin 2 → Fin S64x8.rank)
  bcast_S64x8_S64x8x1x1_0_1 : S64x8.BroadcastsInDim S64x8x1x1 (![0, 1] : Fin 2 → Fin S64x8x1x1.rank)
  bcast_S64x8x1x1_S64x8x512x256_0_1_2_3 : S64x8x1x1.BroadcastsInDim S64x8x512x256 (![0, 1, 2, 3] : Fin 4 → Fin S64x8x512x256.rank)
  reducesTo_S64x8x512x256_S64x512x256_d1 : S64x8x512x256.ReducesTo [1] S64x512x256
  h_S_ : 0 < S_.numel
  bcast_S64x512x256_S64x1x512x256_0_2_3 : S64x512x256.BroadcastsInDim S64x1x512x256 (![0, 2, 3] : Fin 3 → Fin S64x1x512x256.rank)
  bcast_S_S64x1x512x256 : S_.BroadcastsInDim S64x1x512x256 (![] : Fin 0 → Fin S64x1x512x256.rank)
  reducesTo_S64x1x512x256_S_d0_1_2_3 : S64x1x512x256.ReducesTo [0, 1, 2, 3] S_

variable [Facts₀]

class Facts : Prop extends Facts₀ where

variable [Facts]
-- ==== Proof.Spec.lean ====
/-
  The focal loss over a Gaussian heat map, as ONE function of three arrays of extended reals:
  `E` (64 x 8 x 512), the masked Gaussian factor along the first angle, `Th` (64 x 8 x 256), the Gaussian factor along
  the second angle, and `P` (64 x 512 x 256), the predicted heat map.

  At a cell (b, g, h) the target is the peak over the eight sources k of `E (b,k,g) * Th (b,k,h)`, taken from zero; the
  prediction is clipped to [lo, hi]; the cell's loss is
    qa * (1 - p)^2 * target * log p + qb * p^2 * (1 - target) * log (1 + (0 - p)),
  and the result is the sum of the cells' losses, divided by their number. The sum is taken as the kernel takes it:
  the batch axis in four groups of sixteen, the first angle in four tiles of 128, a group's four tile sums added one
  after the other from zero. Every constant is kept as the binary word both programs carry.
-/
import Idealize.ShloMosaic.PureOps.Ideal
import Idealize.ShloMosaic.Lib.ValueIdx

noncomputable section

open scoped BigOperators

namespace Cert.Focal

open Idealize.ShloMosaic Idealize.ShloMosaic.ValueIdx

/-- The clip's lower bound, the word of 1e-7. -/
abbrev lo : EReal := Ideal.ofBits .f32 0x33D6BF95#32
/-- The clip's upper bound, the word of 1 - 1e-7. -/
abbrev hi : EReal := Ideal.ofBits .f32 0x3F7FFFFE#32
/-- The word of 1. -/
abbrev one : EReal := Ideal.ofBits .f32 0x3F800000#32
/-- The word of 0. -/
abbrev zero : EReal := Ideal.ofBits .f32 0x00000000#32
/-- The word of -1/4: minus the focal weight. -/
abbrev qa : EReal := Ideal.ofBits .f32 0xBE800000#32
/-- The word of -3/4: minus the complementary weight. -/
abbrev qb : EReal := Ideal.ofBits .f32 0xBF400000#32
/-- The word of -1/2: the Gaussian's exponent factor. -/
abbrev half : EReal := Ideal.ofBits .f32 0xBF000000#32
/-- The word of 2: the focusing exponent. -/
abbrev two : EReal := Ideal.ofBits .f32 0x40000000#32
/-- The word of 2^23 = 64 * 512 * 256: the number of cells. -/
abbrev count : EReal := Ideal.ofBits .f32 0x4B000000#32

/-- The prediction clipped to [lo, hi]. -/
def clip (x : EReal) : EReal := min hi (max lo x)

/-- One cell's loss from its prediction `x` and its target `g`. -/
def term (x g : EReal) : EReal :=
  qa * ((one - clip x) * (one - clip x)) * g * Ideal.log (clip x)
    + qb * (clip x * clip x) * (one - g) * Ideal.log1p (zero - clip x)

/-- The peak of eight products, taken from zero, source after source. -/
def peak (e f : Fin 8 → EReal) : EReal :=
  max (max (max (max (max (max (max (max zero (e 0 * f 0)) (e 1 * f 1)) (e 2 * f 2)) (e 3 * f 3)) (e 4 * f 4)) (e 5 * f 5))
    (e 6 * f 6)) (e 7 * f 7)

/-- The masked Gaussian factor along the first angle, from the squared scaled distances `d` and the source mask. -/
def ephi (d : (⟨3, ![64, 8, 512]⟩ : Shape).Idx → EReal) (mk : (⟨2, ![64, 8]⟩ : Shape).Idx → BitVec 1) :
    (⟨3, ![64, 8, 512]⟩ : Shape).Idx → EReal :=
  fun i => Scalar.select (mk (ix2 (i 0) (i 1))) (Ideal.exp (half * d i)) zero

/-- The Gaussian factor along the second angle, from the squared scaled distances. -/
def etheta (d : (⟨3, ![64, 8, 256]⟩ : Shape).Idx → EReal) : (⟨3, ![64, 8, 256]⟩ : Shape).Idx → EReal :=
  fun i => Ideal.exp (half * d i)

/-- The predicted heat map without its unit channel axis. -/
def squeeze (x : (⟨4, ![64, 1, 512, 256]⟩ : Shape).Idx → EReal) : (⟨3, ![64, 512, 256]⟩ : Shape).Idx → EReal :=
  fun j => x (ix4 (j 0) (0 : Fin 1) (j 1) (j 2))

/-- The sum of the losses of one tile's cells, from the tile's three blocks: the prediction's (16 x 128 x 256), the first
    factor's (16 x 8 x 128) and the second factor's (16 x 8 x 256). -/
def blockSum (x0 : (⟨3, ![16, 128, 256]⟩ : Shape).Idx → EReal) (x1 : (⟨3, ![16, 8, 128]⟩ : Shape).Idx → EReal)
    (x2 : (⟨3, ![16, 8, 256]⟩ : Shape).Idx → EReal) : EReal :=
  ∑ b : Fin 16, ∑ r : Fin 128, ∑ l : Fin 256,
    term (x0 (ix3 b r l)) (peak (fun k => x1 (ix3 b k r)) (fun k => x2 (ix3 b k l)))

section
variable (E : (⟨3, ![64, 8, 512]⟩ : Shape).Idx → EReal) (Th : (⟨3, ![64, 8, 256]⟩ : Shape).Idx → EReal)
  (P : (⟨3, ![64, 512, 256]⟩ : Shape).Idx → EReal)

/-- The loss of cell (b, g, h). -/
def cell (b : Fin 64) (g : Fin 512) (h : Fin 256) : EReal :=
  term (P (ix3 b g h)) (peak (fun k => E (ix3 b k g)) (fun k => Th (ix3 b k h)))

/-- Row `b` of batch group `p`. -/
def batchAt (p : Fin 4) (b : Fin 16) : Fin 64 := ⟨16 * p.val + b.val, by omega⟩
/-- Row `r` of tile `t` of the first angle. -/
def phiAt (t : Fin 4) (r : Fin 128) : Fin 512 := ⟨128 * t.val + r.val, by omega⟩

/-- The sum of the losses of the cells of batch group `p` and tile `t`. -/
def tileSum (p t : Fin 4) : EReal :=
  ∑ b : Fin 16, ∑ r : Fin 128, ∑ l : Fin 256, cell E Th P (batchAt p b) (phiAt t r) l

/-- Batch group `p`'s sum: its four tile sums added one after the other from zero. -/
def groupSum (p : Fin 4) : EReal :=
  zero + tileSum E Th P p 0 + tileSum E Th P p 1 + tileSum E Th P p 2 + tileSum E Th P p 3

/-- The mean loss, the groups' sums added from zero and divided by the number of cells. -/
def meanLoss : EReal := Ideal.div (zero + ∑ p : Fin 4, groupSum E Th P p) count

end

end Cert.Focal

end
-- ==== Proof.Pieces.lean ====
/-
  What one grid point's body leaves behind, as a value. The body keeps a running sum in a scratch block carried from
  point to point: at a group's first tile it stores the zero block and then the zero block plus the tile's sum, at the
  later tiles the block it found plus the tile's sum; at a group's last tile it also copies the scratch into the
  output block. Each of these is ONE function `upd` of the point's three input blocks and of the block found.
-/
import proofs.«139907_j13640816132153_2_alg».proof.Proof.Gen.KernelIdeal.Frame
import proofs.«139907_j13640816132153_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.Focal.Kernel

open Cert.KernelIdeal Cert.KernelIdeal.Gen

variable {F : FTy → Type} [FloatOps F]

theorem hz3 : (![0, 0, 0] : Fin 3 → Nat) = fun _ => 0 := funext fun a => by fin_cases a <;> rfl

/-- The scratch block after a point: the block found, `prev`, plus the sum of the tile's losses in every entry. -/
def upd (x0 : Vec F S16x128x256 .f32) (x1 : Vec F S16x8x128 .f32) (x2 : Vec F S16x8x256 .f32)
    (prev : Vec F S1x8x128 .f32) : Vec F S1x8x128 .f32 :=
  k0_pay1 (k0_pay6 (k0_pay3 x1) (k0_pay4 x2) (k0_pay5 x1 x2)) (k0_pay7 x0)
    (k0_pay8 (k0_pay3 x1) (k0_pay4 x2) (k0_pay5 x1 x2) x0) (k0_pay9 x0) prev

/-- A later tile that is not the last: the scratch ends at the block found plus the tile's sum. -/
theorem scratch_B (c : Dev nD) (i : grid0.Coords) (a2 : Memref sig .tc .vmem S16x128x256 .f32) (h2 : a2.IsWhole)
    (a3 : Memref sig .tc .vmem S16x8x128 .f32) (h3 : a3.IsWhole) (a4 : Memref sig .tc .vmem S16x8x256 .f32) (h4 : a4.IsWhole)
    (a5 : Memref sig .tc .vmem S1x8x128 .f32) (h5 : a5.IsWhole) (a6 : Memref sig .tc .vmem S1x8x128 .f32) (h6 : a6.IsWhole)
    (hc0 : ¬cond0_0 i) (hc1 : ¬cond0_1 i)
    (x0 : Vec F S16x128x256 .f32) (x1 : Vec F S16x8x128 .f32) (x2 : Vec F S16x8x256 .f32) (xs0 : Vec F S1x8x128 .f32) :
    sout0_B_0 c i a2 h2 a3 h3 a4 h4 a5 h5 a6 h6 hc0 hc1 x0 x1 x2 xs0 = upd x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz3]
  unfold upd
  simp only [View.readAt_eq_ld, h2.read_unread, h3.read_unread, h4.read_unread, h6.read_unread, View.ld_unit_zero (S := S1x8x128) hz3, View.ld_unit_zero (S := S16x128x256) hz3, View.ld_unit_zero (S := S16x8x128) hz3, View.ld_unit_zero (S := S16x8x256) hz3]

/-- A group's last tile: the scratch ends at the block found plus the tile's sum … -/
theorem scratch_C (c : Dev nD) (i : grid0.Coords) (a2 : Memref sig .tc .vmem S16x128x256 .f32) (h2 : a2.IsWhole)
    (a3 : Memref sig .tc .vmem S16x8x128 .f32) (h3 : a3.IsWhole) (a4 : Memref sig .tc .vmem S16x8x256 .f32) (h4 : a4.IsWhole)
    (a5 : Memref sig .tc .vmem S1x8x128 .f32) (h5 : a5.IsWhole) (a6 : Memref sig .tc .vmem S1x8x128 .f32) (h6 : a6.IsWhole)
    (hc0 : ¬cond0_0 i) (hc1 : cond0_1 i)
    (x0 : Vec F S16x128x256 .f32) (x1 : Vec F S16x8x128 .f32) (x2 : Vec F S16x8x256 .f32) (xs0 : Vec F S1x8x128 .f32) :
    sout0_C_0 c i a2 h2 a3 h3 a4 h4 a5 h5 a6 h6 hc0 hc1 x0 x1 x2 xs0 = upd x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz3]
  unfold upd
  simp only [View.readAt_eq_ld, h2.read_unread, h3.read_unread, h4.read_unread, h6.read_unread, View.ld_unit_zero (S := S1x8x128) hz3, View.ld_unit_zero (S := S16x128x256) hz3, View.ld_unit_zero (S := S16x8x128) hz3, View.ld_unit_zero (S := S16x8x256) hz3]

/-- … and the output block is a copy of it. -/
theorem out_C (c : Dev nD) (i : grid0.Coords) (a2 : Memref sig .tc .vmem S16x128x256 .f32) (h2 : a2.IsWhole)
    (a3 : Memref sig .tc .vmem S16x8x128 .f32) (h3 : a3.IsWhole) (a4 : Memref sig .tc .vmem S16x8x256 .f32) (h4 : a4.IsWhole)
    (a5 : Memref sig .tc .vmem S1x8x128 .f32) (h5 : a5.IsWhole) (a6 : Memref sig .tc .vmem S1x8x128 .f32) (h6 : a6.IsWhole)
    (hc0 : ¬cond0_0 i) (hc1 : cond0_1 i)
    (x0 : Vec F S16x128x256 .f32) (x1 : Vec F S16x8x128 .f32) (x2 : Vec F S16x8x256 .f32) (xs0 : Vec F S1x8x128 .f32) :
    out0_C_3 c i a2 h2 a3 h3 a4 h4 a5 h5 a6 h6 hc0 hc1 x0 x1 x2 xs0 = upd x0 x1 x2 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3, View.readCov_unit_zero (S := S1x8x128) _ hz3]
  unfold upd
  simp only [View.readAt_eq_ld, h2.read_unread, h3.read_unread, h4.read_unread, h6.read_unread, View.ld_unit_zero (S := S1x8x128) hz3, View.ld_unit_zero (S := S16x128x256) hz3, View.ld_unit_zero (S := S16x8x128) hz3, View.ld_unit_zero (S := S16x8x256) hz3]

/-- A group's first tile: the scratch is set to the zero block, and ends at the zero block plus the tile's sum. -/
theorem scratch_A (c : Dev nD) (i : grid0.Coords) (a2 : Memref sig .tc .vmem S16x128x256 .f32) (h2 : a2.IsWhole)
    (a3 : Memref sig .tc .vmem S16x8x128 .f32) (h3 : a3.IsWhole) (a4 : Memref sig .tc .vmem S16x8x256 .f32) (h4 : a4.IsWhole)
    (a5 : Memref sig .tc .vmem S1x8x128 .f32) (h5 : a5.IsWhole) (a6 : Memref sig .tc .vmem S1x8x128 .f32) (h6 : a6.IsWhole)
    (hc0 : cond0_0 i) (hc1 : ¬cond0_1 i)
    (x0 : Vec F S16x128x256 .f32) (x1 : Vec F S16x8x128 .f32) (x2 : Vec F S16x8x256 .f32) :
    sout0_A_0 c i a2 h2 a3 h3 a4 h4 a5 h5 a6 h6 hc0 hc1 x0 x1 x2 = upd x0 x1 x2 (k0_pay2 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x8x128) hz3, View.readCov_unit_zero (S := S1x8x128) _ hz3]
  unfold upd
  simp only [View.readAt_eq_ld, h2.read_unread, h3.read_unread, h4.read_unread, h6.read_unread, View.ld_unit_zero (S := S1x8x128) hz3, View.ld_unit_zero (S := S16x128x256) hz3, View.ld_unit_zero (S := S16x8x128) hz3, View.ld_unit_zero (S := S16x8x256) hz3]

end Cert.Focal.Kernel

end
-- ==== Proof.Chain.lean ====
/-
  The running block, point after point. The sixteen grid points go through the four batch groups one after the other,
  four tiles each: at a group's first tile the block restarts from the zero block, at the others it continues from what
  the point before left. What the generated frame records of the scratch after each point, and of the output block at a
  group's last tile, is this recursion.
-/
import proofs.«139907_j13640816132153_2_alg».proof.Proof.Pieces

set_option maxRecDepth 16384

noncomputable section

open Idealize.ShloMosaic Idealize.ShloMosaic.TcCoe Idealize.SL.Sem
open Idealize.ShloMosaic.Pipeline (Dat)

namespace Cert.Focal.Kernel

open Cert.KernelIdeal Cert.KernelIdeal.Gen

variable {F : FTy → Type} [FloatOps F]
variable (m : (ℓ : Loc nD τ sig) → Buf (Elt F) ℓ)

/-- The scratch block after point `n`. -/
def chain (c : Dev nD) : (n : ℕ) → n < cfg0.N → Vec F S1x8x128 .f32
  | 0, h => upd (iblk m c 0 ⟨0, h⟩) (iblk m c 1 ⟨0, h⟩) (iblk m c 2 ⟨0, h⟩) (k0_pay2 (F := F))
  | n + 1, h =>
    if (n + 1) % 4 = 0 then
      upd (iblk m c 0 ⟨n + 1, h⟩) (iblk m c 1 ⟨n + 1, h⟩) (iblk m c 2 ⟨n + 1, h⟩) (k0_pay2 (F := F))
    else
      upd (iblk m c 0 ⟨n + 1, h⟩) (iblk m c 1 ⟨n + 1, h⟩) (iblk m c 2 ⟨n + 1, h⟩) (chain c n (Nat.lt_of_succ_lt h))

/-- The scratch the frame records after point `n` is the running block. -/
theorem outsAt_scratch (c : Dev nD) : ∀ (n : ℕ) (h : n < cfg0.N), (outsAt0 m c n h).2 = chain m c n h
  | 0, h => by
    rw [outsAt0_A m c ⟨0, h⟩ rfl (by show ¬0 % 4 = 3; decide)]
    dsimp only
    rw [scratch_A]
    rfl
  | n + 1, h => by
    have hN : cfg0.N = 16 := N_0
    by_cases h0 : (n + 1) % 4 = 0
    · have h1 : ¬(n + 1) % 4 = 3 := by omega
      rw [outsAt0_A m c ⟨n + 1, h⟩ h0 h1]
      dsimp only
      rw [scratch_A]
      simp only [chain, if_pos h0]
    · by_cases h1 : (n + 1) % 4 = 3
      · rw [outsAt0_C m c ⟨n + 1, h⟩ h0 h1]
        dsimp only
        rw [scratch_C]
        simp only [chain, if_neg h0]
        show upd (F := F) _ _ _ (outsAt0 m c n _).2 = _
        rw [outsAt_scratch c n]
      · rw [outsAt0_B m c ⟨n + 1, h⟩ h0 h1]
        dsimp only
        rw [scratch_B]
        simp only [chain, if_neg h0]
        show upd (F := F) _ _ _ (outsAt0 m c n _).2 = _
        rw [outsAt_scratch c n]

/-- At a group's last tile the output block the frame records is the running block too. -/
theorem outsAt_out (c : Dev nD) (n : ℕ) (h : n < cfg0.N) (h3 : n % 4 = 3) : (outsAt0 m c n h).1 = chain m c n h := by
  have hN : cfg0.N = 16 := N_0
  obtain ⟨k, rfl⟩ : ∃ k, n = k + 1 := ⟨n - 1, by omega⟩
  have h0 : ¬(k + 1) % 4 = 0 := by omega
  rw [outsAt0_C m c ⟨k + 1, h⟩ h0 h3]
  dsimp only
  rw [out_C]
  simp only [chain, if_neg h0]
  show upd (F := F) _ _ _ (outsAt0 m c k _).2 = _
  rw [outsAt_scratch m c k]

end Cert.Focal.Kernel

end
-- ==== Proof.Blocks.lean ====
/-
  Where a grid point's blocks sit in their arrays. Point `t` of the 4 x 4 grid belongs to batch group `t / 4` and
  tile `t % 4` of the first angle: its prediction block is rows 16 (t/4) + b, 128 (t%4) + r of the prediction array,
  its first-factor block rows 16 (t/4) + b and columns 128 (t%4) + r of the first factor, its second-factor block
  rows 16 (t/4) + b of the second factor, whatever the tile.
-/
import proofs.«139907_j13640816132153_2_alg».proof.Proof.Chain

set_option maxRecDepth 16384

noncomputable section

open Idealize.ShloMosaic Idealize.ShloMosaic.TcCoe Idealize.SL.Sem Idealize.ShloMosaic.ValueIdx
open Idealize.ShloMosaic.Pipeline (Dat)

namespace Cert.Focal.Kernel

open Cert.KernelIdeal Cert.KernelIdeal.Gen

variable {F : FTy → Type} [FloatOps F]
variable (m : (ℓ : Loc nD τ sig) → Buf (Elt F) ℓ)

/-- The block indices of the four windows at a point, decided once over the grid. -/
theorem idx_facts : ∀ t : Fin cfg0.N,
    (win0_0.index t 0 = t.val / 4 ∧ win0_0.index t 1 = t.val % 4 ∧ win0_0.index t 2 = 0)
    ∧ (win0_1.index t 0 = t.val / 4 ∧ win0_1.index t 1 = 0 ∧ win0_1.index t 2 = t.val % 4)
    ∧ (win0_2.index t 0 = t.val / 4 ∧ win0_2.index t 1 = 0 ∧ win0_2.index t 2 = 0)
    ∧ (win0_3.index t 0 = t.val / 4 ∧ win0_3.index t 1 = 0 ∧ win0_3.index t 2 = 0) :=
  (by decide +kernel : ∀ t : Fin grid0.N,
    (win0_0.index t 0 = t.val / 4 ∧ win0_0.index t 1 = t.val % 4 ∧ win0_0.index t 2 = 0)
    ∧ (win0_1.index t 0 = t.val / 4 ∧ win0_1.index t 1 = 0 ∧ win0_1.index t 2 = t.val % 4)
    ∧ (win0_2.index t 0 = t.val / 4 ∧ win0_2.index t 1 = 0 ∧ win0_2.index t 2 = 0)
    ∧ (win0_3.index t 0 = t.val / 4 ∧ win0_3.index t 1 = 0 ∧ win0_3.index t 2 = 0))

theorem pt_lt (t : Fin cfg0.N) : t.val < 16 := lt_of_lt_of_eq t.isLt (show cfg0.N = 16 from N_0)

/-- The prediction block of point `t` at (b, r, l). -/
theorem iblk0_apply (c : Dev nD) (t : Fin cfg0.N) (b : Fin 16) (r : Fin 128) (l : Fin 256) :
    (iblk m c 0 t : Vec F S16x128x256 .f32) (ix3 b r l)
      = (V m c main_v44 : S64x512x256.Idx → Elt F .f32)
          (ix3 (⟨16 * (t.val / 4) + b.val, by have := pt_lt t; omega⟩ : Fin 64)
            (⟨128 * (t.val % 4) + r.val, by have := pt_lt t; omega⟩ : Fin 512) l) := by
  unfold iblk
  rw [View.read_apply]
  show V m c main_v44 _ = V m c main_v44 _
  congr 1
  funext a
  apply Fin.ext
  match a with
  | ⟨0, _⟩ => show win0_0.index t 0 * 16 + 1 * b.val = 16 * (t.val / 4) + b.val; rw [(idx_facts t).1.1]; omega
  | ⟨1, _⟩ => show win0_0.index t 1 * 128 + 1 * r.val = 128 * (t.val % 4) + r.val; rw [(idx_facts t).1.2.1]; omega
  | ⟨2, _⟩ => show win0_0.index t 2 * 256 + 1 * l.val = l.val; rw [(idx_facts t).1.2.2]; omega

/-- The first-factor block of point `t` at (b, k, r). -/
theorem iblk1_apply (c : Dev nD) (t : Fin cfg0.N) (b : Fin 16) (k : Fin 8) (r : Fin 128) :
    (iblk m c 1 t : Vec F S16x8x128 .f32) (ix3 b k r)
      = (V m c main_v43 : S64x8x512.Idx → Elt F .f32)
          (ix3 (⟨16 * (t.val / 4) + b.val, by have := pt_lt t; omega⟩ : Fin 64) k
            (⟨128 * (t.val % 4) + r.val, by have := pt_lt t; omega⟩ : Fin 512)) := by
  unfold iblk
  rw [View.read_apply]
  show V m c main_v43 _ = V m c main_v43 _
  congr 1
  funext a
  apply Fin.ext
  match a with
  | ⟨0, _⟩ => show win0_1.index t 0 * 16 + 1 * b.val = 16 * (t.val / 4) + b.val; rw [(idx_facts t).2.1.1]; omega
  | ⟨1, _⟩ => show win0_1.index t 1 * 8 + 1 * k.val = k.val; rw [(idx_facts t).2.1.2.1]; omega
  | ⟨2, _⟩ => show win0_1.index t 2 * 128 + 1 * r.val = 128 * (t.val % 4) + r.val; rw [(idx_facts t).2.1.2.2]; omega

/-- The second-factor block of point `t` at (b, k, l). -/
theorem iblk2_apply (c : Dev nD) (t : Fin cfg0.N) (b : Fin 16) (k : Fin 8) (l : Fin 256) :
    (iblk m c 2 t : Vec F S16x8x256 .f32) (ix3 b k l)
      = (V m c main_v35 : S64x8x256.Idx → Elt F .f32)
          (ix3 (⟨16 * (t.val / 4) + b.val, by have := pt_lt t; omega⟩ : Fin 64) k l) := by
  unfold iblk
  rw [View.read_apply]
  show V m c main_v35 _ = V m c main_v35 _
  congr 1
  funext a
  apply Fin.ext
  match a with
  | ⟨0, _⟩ => show win0_2.index t 0 * 16 + 1 * b.val = 16 * (t.val / 4) + b.val; rw [(idx_facts t).2.2.1.1]; omega
  | ⟨1, _⟩ => show win0_2.index t 1 * 8 + 1 * k.val = k.val; rw [(idx_facts t).2.2.1.2.1]; omega
  | ⟨2, _⟩ => show win0_2.index t 2 * 256 + 1 * l.val = l.val; rw [(idx_facts t).2.2.1.2.2]; omega

end Cert.Focal.Kernel

end
-- ==== Proof.BodyLayout.lean ====
/-
  Layout operations of the tile's body read at an index given by coordinates: the reshapes that drop or add a unit axis
  in the middle or at the end of a shape, and the two broadcasts that spread a column, or a row, of a rank-3 array over
  the missing axis.  Each is the library's general reading of the operation with the coordinates' arithmetic done.
-/
import Idealize.ShloMosaic.Lib.ValueIdx
import Idealize.ShloMosaic.Lib.Pipeline.Value
import Idealize.ShloMosaic.Lib.ValueLayout

namespace Cert.Focal.Body

open Idealize.ShloMosaic Idealize.ShloMosaic.ValueIdx

variable {α : Type}

/-! ## A unit axis dropped or added by a shape cast -/

/-- An `[a, 1, c]` array cast to `[a, c]` reads, at `(i, j)`, the operand at `(i, 0, j)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (j : Fin c) :
    shapeCast ⟨2, ![a, c]⟩ x h (ix2 i j) = x (ix3 i (0 : Fin 1) j) :=
  shapeCast_apply x h _ _ (by
    rw [Shape.rowMajor_val_three, Shape.rowMajor_val_two]
    show (i.val * 1 + 0) * c + j.val = i.val * c + j.val
    rw [Nat.mul_one, Nat.add_zero])

/-- An `[a, c]` array cast to `[a, 1, c]` reads, at `(i, u, j)`, the operand at `(i, j)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A one-element array cast to `[1, 1, 1, 1]` reads its one element everywhere. -/
theorem shapeCast_1_1111_apply (x : (⟨1, ![1]⟩ : Shape).Idx → α)
    (h : (⟨1, ![1]⟩ : Shape).ShapeCasts ⟨4, ![1, 1, 1, 1]⟩) (j : (⟨4, ![1, 1, 1, 1]⟩ : Shape).Idx) :
    shapeCast ⟨4, ![1, 1, 1, 1]⟩ x h j = x (ix1 (0 : Fin 1)) :=
  shapeCast_apply x h _ _ (by
    have h0 : (j 0).val < 1 := (j 0).isLt
    have h1 : (j 1).val < 1 := (j 1).isLt
    have h2 : (j 2).val < 1 := (j 2).isLt
    have h3 : (j 3).val < 1 := (j 3).isLt
    rw [Shape.rowMajor_val_four, Shape.rowMajor_val_one]
    show 0 = (((j 0).val * 1 + (j 1).val) * 1 + (j 2).val) * 1 + (j 3).val
    omega)

/-! ## A column, or a row, of a rank-3 array spread over the missing axis -/

/-- An `[a, b, 1]` array broadcast to `[a, b, c]` reads, at `(i, j, l)`, the operand's one element of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand's one row of slab `i` at `l`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

end Cert.Focal.Body
-- ==== Proof.BodyPeak.lean ====
/-
  The target of a cell, as the tile's body forms it: the running maximum, from the zero splat, of the eight sources'
  products, each product the first factor's row spread along the lanes times the second factor's row spread along the
  rows.  Read at a cell (b, r, l) of the tile it is the peak of the eight products x1 (b, k, r) * x2 (b, k, l).
-/
import proofs.«139907_j13640816132153_2_alg».proof.Proof.Gen.KernelIdeal.Skeleton
import proofs.«139907_j13640816132153_2_alg».proof.Proof.Spec
import proofs.«139907_j13640816132153_2_alg».proof.Proof.BodyLayout
import Idealize.ShloMosaic.PureOps.Ideal.Laws

noncomputable section

namespace Cert.Focal.Body

open Idealize.ShloMosaic Idealize.ShloMosaic.ValueIdx
open Cert.KernelIdeal Cert.KernelIdeal.Gen Cert.Focal

/-- One source's product spread over the tile: source `k`'s row of the first factor block, cut out, reshaped to a column
    and spread along the lanes, times its row of the second factor block, cut out, reshaped to a row and spread along the
    rows, is at `(b, r, l)` the product `x1 (b, k, r) * x2 (b, k, l)`. -/
theorem source_product (x1 : FVec Ideal S16x8x128 .f32) (x2 : FVec Ideal S16x8x256 .f32) (o : Nat) (k : Fin 8) (hk : k.val = o)
    (h1 : S16x8x128.Slices ![0, o, 0] S16x1x128) (h2 : S16x8x256.Slices ![0, o, 0] S16x1x256)
    (c1 : S16x1x128.ShapeCasts S16x128) (c2 : S16x1x256.ShapeCasts S16x256)
    (c3 : S16x128.ShapeCasts S16x128x1) (c4 : S16x256.ShapeCasts S16x1x256)
    (b1 : S16x128x1.Broadcasts S16x128x256) (b2 : S16x1x256.Broadcasts S16x128x256)
    (b : Fin 16) (r : Fin 128) (l : Fin 256) :
    mulf (broadcastTo S16x128x256 (shapeCast S16x128x1 (shapeCast S16x128 (extractStridedSlice S16x1x128 ![0, o, 0] x1 h1) c1) c3) b1)
        (broadcastTo S16x128x256 (shapeCast S16x1x256 (shapeCast S16x256 (extractStridedSlice S16x1x256 ![0, o, 0] x2 h2) c2) c4) b2)
        (ix3 b r l)
      = x1 (ix3 b k r) * x2 (ix3 b k l) := by
  rw [mulf_apply, broadcastTo_ab1_abc_apply, broadcastTo_a1c_abc_apply, shapeCast_ab_ab1_apply, shapeCast_ac_a1c_apply,
    shapeCast_a1c_ac_apply, shapeCast_a1c_ac_apply,
    slice3_axis1_apply o x1 h1 b (0 : Fin 1) r k (by show k.val = o + 0; omega),
    slice3_axis1_apply o x2 h2 b (0 : Fin 1) l k (by show k.val = o + 0; omega)]

/-- The first four sources: the running maximum from the zero splat, read at a cell. -/
theorem first_four (x1 : Vec Ideal S16x8x128 .f32) (x2 : Vec Ideal S16x8x256 .f32) (b : Fin 16) (r : Fin 128) (l : Fin 256) :
    k0_pay5 (F := Ideal) x1 x2 (ix3 b r l)
      = max (max (max (max zero (x1 (ix3 b 0 r) * x2 (ix3 b 0 l))) (x1 (ix3 b 1 r) * x2 (ix3 b 1 l)))
          (x1 (ix3 b 2 r) * x2 (ix3 b 2 l))) (x1 (ix3 b 3 r) * x2 (ix3 b 3 l)) := by
  unfold k0_pay5 k0_pay3 k0_pay4
  simp only [shapeCast_self, maximumf_apply, broadcast_apply]
  rw [source_product x1 x2 0 0 rfl, source_product x1 x2 1 1 rfl, source_product x1 x2 2 2 rfl, source_product x1 x2 3 3 rfl]
  rfl

/-- The last four sources continue the running maximum `m` of the first four. -/
theorem last_four (x1 : FVec Ideal S16x8x128 .f32) (x2 : FVec Ideal S16x8x256 .f32) (m : FVec Ideal S16x128x256 .f32)
    (b : Fin 16) (r : Fin 128) (l : Fin 256) :
    k0_pay6 (F := Ideal) x1 x2 m (ix3 b r l)
      = max (max (max (max (m (ix3 b r l)) (x1 (ix3 b 4 r) * x2 (ix3 b 4 l))) (x1 (ix3 b 5 r) * x2 (ix3 b 5 l)))
          (x1 (ix3 b 6 r) * x2 (ix3 b 6 l))) (x1 (ix3 b 7 r) * x2 (ix3 b 7 l)) := by
  unfold k0_pay6
  simp only [maximumf_apply]
  rw [source_product x1 x2 4 4 rfl, source_product x1 x2 5 5 rfl, source_product x1 x2 6 6 rfl, source_product x1 x2 7 7 rfl]

/-- THE TARGET AT A CELL: the body's running maximum over the eight sources is the peak of the eight products. -/
theorem target_apply (x1 : Vec Ideal S16x8x128 .f32) (x2 : Vec Ideal S16x8x256 .f32) (b : Fin 16) (r : Fin 128) (l : Fin 256) :
    k0_pay6 (F := Ideal) (k0_pay3 x1) (k0_pay4 x2) (k0_pay5 x1 x2) (ix3 b r l)
      = peak (fun k => x1 (ix3 b k r)) (fun k => x2 (ix3 b k l)) := by
  rw [last_four, first_four]
  unfold k0_pay3 k0_pay4
  simp only [shapeCast_self]
  rfl

end Cert.Focal.Body

end
-- ==== Proof.BodyValue.lean ====
/-
  The tile's contribution to the running sum.  The body forms every cell's loss pointwise, adds the 256 lanes of each
  row, then the 128 rows of each slab, then the sixteen slabs, and adds the one number it gets to every element of the
  running block.  Read at the ideal instance the three reductions are finite sums of extended reals in the order
  slab, row, lane; the summand at a cell is the specification's term at the clipped prediction and the peak of the
  eight products.
-/
import proofs.«139907_j13640816132153_2_alg».proof.Proof.Gen.KernelIdeal.Skeleton
import proofs.«139907_j13640816132153_2_alg».proof.Proof.Spec
import proofs.«139907_j13640816132153_2_alg».proof.Proof.BodyLayout
import proofs.«139907_j13640816132153_2_alg».proof.Proof.BodyPeak
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Focal.Body

open Idealize.ShloMosaic Idealize.ShloMosaic.ValueIdx
open Cert.KernelIdeal Cert.KernelIdeal.Gen Cert.Focal

/-! ## The three reductions -/

/-- The sums over the 256 lanes of each row. -/
def laneSums (T : FVec Ideal S16x128x256 .f32) : FVec Ideal S16x128 .f32 :=
  multiReduction (F := Ideal) .add [2] S16x128 T 0x00000000#32 reduces_S16x128x256_S16x128 (.inl rfl) rfl

/-- The sums of the lane sums over the 128 rows of each slab. -/
def rowSums (T : FVec Ideal S16x128x256 .f32) : FVec Ideal S16x1 .f32 :=
  multiReduction (F := Ideal) .add [1] S16x1 (shapeCast S16x128x1 (laneSums T) shapeCasts_S16x128_S16x128x1) 0x00000000#32
    reduces_S16x128x1_S16x1 (.inl rfl) rfl

/-- The one number the body extracts: the sum of the slabs' sums. -/
def total (T : FVec Ideal S16x128x256 .f32) : EReal :=
  extractAt ![0, 0, 0, 0]
    (shapeCast S1x1x1x1
      (multiReduction (F := Ideal) .add [1, 2, 3] S1
        (shapeCast S1x16x1x1 (shapeCast S16x1x1 (rowSums T) shapeCasts_S16x1_S16x1x1) shapeCasts_S16x1x1_S1x16x1x1)
        0x00000000#32 reduces_S1x16x1x1_S1 (.inl rfl) rfl)
      shapeCasts_S1_S1x1x1x1)
    inpos_S1x1x1x1_p0_0_0_0

/-- A row's lane sum is the sum of the row's 256 elements. -/
theorem laneSums_apply (T : FVec Ideal S16x128x256 .f32) (b : Fin 16) (r : Fin 128) :
    laneSums T (ix2 b r) = ∑ l : Fin 256, T (ix3 b r l) := by
  unfold laneSums
  refine (Ideal.multiReduction_add_single T _ reduces_S16x128x256_S16x128 _ _ (ix2 b r)).trans ?_
  show ∑ l : Fin 256, T (reduces_S16x128x256_S16x128.lift (ix2 b r) l) = _
  refine Finset.sum_congr rfl fun l _ => congrArg T (funext fun a => Fin.ext ?_)
  match a with
  | ⟨0, _⟩ => rfl
  | ⟨1, _⟩ => rfl
  | ⟨2, _⟩ => rfl

/-- A slab's row sum is the sum over its 128 rows of the rows' lane sums. -/
theorem rowSums_apply (T : FVec Ideal S16x128x256 .f32) (b : Fin 16) (u : Fin 1) :
    rowSums T (ix2 b u) = ∑ r : Fin 128, ∑ l : Fin 256, T (ix3 b r l) := by
  unfold rowSums
  refine (Ideal.multiReduction_add_single _ _ reduces_S16x128x1_S16x1 _ _ (ix2 b u)).trans ?_
  show ∑ r : Fin 128, shapeCast S16x128x1 (laneSums T) shapeCasts_S16x128_S16x128x1
      (reduces_S16x128x1_S16x1.lift (ix2 b u) r) = _
  refine Finset.sum_congr rfl fun r _ => ?_
  have e : reduces_S16x128x1_S16x1.lift (ix2 b u) r = ix3 b r u := funext fun a => Fin.ext (by
    match a with
    | ⟨0, _⟩ => rfl
    | ⟨1, _⟩ => rfl
    | ⟨2, _⟩ => rfl)
  rw [e, shapeCast_ab_ab1_apply, laneSums_apply]

/-- The index set of a `[1, n, 1, 1]` array is its second coordinate's range … -/
def idxEquiv1a11 {n : Nat} : (⟨4, ![1, n, 1, 1]⟩ : Shape).Idx ≃ Fin n where
  toFun i := i 1
  invFun b := ix4 (0 : Fin 1) b (0 : Fin 1) (0 : Fin 1)
  left_inv i := by
    have h0 : (i 0).val < 1 := (i 0).isLt
    have h2 : (i 2).val < 1 := (i 2).isLt
    have h3 : (i 3).val < 1 := (i 3).isLt
    funext a
    match a with
    | ⟨0, _⟩ => exact Fin.ext (by show 0 = (i 0).val; omega)
    | ⟨1, _⟩ => rfl
    | ⟨2, _⟩ => exact Fin.ext (by show 0 = (i 2).val; omega)
    | ⟨3, _⟩ => exact Fin.ext (by show 0 = (i 3).val; omega)
  right_inv _ := rfl

/-- … so a sum over it is the sum over that coordinate. -/
theorem sum_idx1a11 {M : Type*} [AddCommMonoid M] {n : Nat} (g : (⟨4, ![1, n, 1, 1]⟩ : Shape).Idx → M) :
    ∑ i, g i = ∑ b : Fin n, g (ix4 (0 : Fin 1) b (0 : Fin 1) (0 : Fin 1)) := by
  rw [← Equiv.sum_comp (idxEquiv1a11 (n := n)).symm g]
  rfl

/-- THE THREE REDUCTIONS: the number the body extracts is the sum over the slabs, the rows and the lanes. -/
theorem total_eq (T : FVec Ideal S16x128x256 .f32) :
    total T = ∑ b : Fin 16, ∑ r : Fin 128, ∑ l : Fin 256, T (ix3 b r l) := by
  unfold total extractAt
  rw [shapeCast_1_1111_apply]
  refine (Ideal.multiReduction_add_total _ _ reduces_S1x16x1x1_S1 (fun a => ?_) _ _ _).trans ?_
  · match a with
    | ⟨0, _⟩ => rfl
  rw [sum_idx1a11]
  refine Finset.sum_congr rfl fun b _ => ?_
  rw [shapeCast_abc_1abc_apply, shapeCast_ab_ab1_apply, rowSums_apply]

/-! ## The pointwise payloads at a cell -/

/-- The clipped prediction. -/
theorem clipped_apply (x0 : Vec Ideal S16x128x256 .f32) (j : S16x128x256.Idx) : k0_pay7 (F := Ideal) x0 j = clip (x0 j) := by
  unfold k0_pay7
  rw [shapeCast_self]
  rfl

/-- The focal factor times the target. -/
theorem weighted_apply (v4 : FVec Ideal S16x8x128 .f32) (v6 : FVec Ideal S16x8x256 .f32) (v47 : FVec Ideal S16x128x256 .f32)
    (x0 : Vec Ideal S16x128x256 .f32) (j : S16x128x256.Idx) :
    k0_pay8 (F := Ideal) v4 v6 v47 x0 j
      = qa * ((one - k0_pay7 (F := Ideal) x0 j) * (one - k0_pay7 (F := Ideal) x0 j)) * k0_pay6 (F := Ideal) v4 v6 v47 j := by
  unfold k0_pay8
  rfl

/-- The logarithm of the clipped prediction. -/
theorem log_apply (x0 : Vec Ideal S16x128x256 .f32) (j : S16x128x256.Idx) :
    k0_pay9 (F := Ideal) x0 j = Ideal.log (k0_pay7 (F := Ideal) x0 j) := by
  unfold k0_pay9
  rfl

/-- The stored block: the running block plus, at every element, the total of the cells' losses formed from the four
    pointwise payloads. -/
theorem stored_eq (v87 v93 v99 v100 : FVec Ideal S16x128x256 .f32) (v121 : Vec Ideal S1x8x128 .f32) :
    k0_pay1 (F := Ideal) v87 v93 v99 v100 v121
      = fun i => v121 i + total (fun j => v99 j * v100 j + qb * (v93 j * v93 j) * (one - v87 j) * Ideal.log1p (zero - v93 j)) := by
  unfold k0_pay1
  refine (shapeCast_self _ _).trans ?_
  rfl

/-! ## The two stores of the accumulator -/

/-- THE ACCUMULATION: a step adds the tile's sum of losses to every element of the running block. -/
theorem accumulate (x0 : Vec Ideal S16x128x256 .f32) (x1 : Vec Ideal S16x8x128 .f32) (x2 : Vec Ideal S16x8x256 .f32)
    (prev : Vec Ideal S1x8x128 .f32) :
    k0_pay1 (F := Ideal) (k0_pay6 (k0_pay3 x1) (k0_pay4 x2) (k0_pay5 x1 x2)) (k0_pay7 x0)
        (k0_pay8 (k0_pay3 x1) (k0_pay4 x2) (k0_pay5 x1 x2) x0) (k0_pay9 x0) prev
      = fun i => prev i + blockSum x0 x1 x2 := by
  rw [stored_eq, total_eq]
  funext i
  refine congrArg (fun z => prev i + z) ?_
  unfold blockSum
  refine Finset.sum_congr rfl fun b _ => Finset.sum_congr rfl fun r _ => Finset.sum_congr rfl fun l _ => ?_
  beta_reduce
  rw [weighted_apply, log_apply, clipped_apply, target_apply]
  rfl

/-- THE START: the first step of a group stores the zero block. -/
theorem start : k0_pay2 (F := Ideal) = fun _ => zero := by
  unfold k0_pay2
  refine (shapeCast_self _ _).trans ?_
  rfl

end Cert.Focal.Body

end
-- ==== Proof.Running.lean ====
/-
  The running block as a number. At the ideal instance every entry of the scratch block after point `n` is the same
  extended real: zero plus the sums of the tiles of the point's batch group up to the point's tile, added in tile
  order. After a group's last tile it is the group's sum.
-/
import proofs.«139907_j13640816132153_2_alg».proof.Proof.Blocks
import proofs.«139907_j13640816132153_2_alg».proof.Proof.BodyValue

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Focal.Kernel

open Cert.KernelIdeal Cert.KernelIdeal.Gen Cert.Focal

variable (m : (ℓ : Loc nD τ sig) → Buf (Elt Ideal) ℓ)

/-- The three staged arrays as the region finds them: the masked first factor, the second factor, the prediction. -/
abbrev arrE (c : Dev nD) : (⟨3, ![64, 8, 512]⟩ : Shape).Idx → EReal := V m c main_v43
abbrev arrTh (c : Dev nD) : (⟨3, ![64, 8, 256]⟩ : Shape).Idx → EReal := V m c main_v35
abbrev arrP (c : Dev nD) : (⟨3, ![64, 512, 256]⟩ : Shape).Idx → EReal := V m c main_v44

/-- Tile `k` (taken mod 4) of group `p`. -/
def tileN (c : Dev nD) (p : Fin 4) (k : ℕ) : EReal :=
  tileSum (arrE m c) (arrTh m c) (arrP m c) p ⟨k % 4, Nat.mod_lt _ (by decide)⟩

/-- Zero plus the first `k + 1` tile sums of group `p`, in order. -/
def partialSum (c : Dev nD) (p : Fin 4) : ℕ → EReal
  | 0 => zero + tileN m c p 0
  | k + 1 => partialSum c p k + tileN m c p (k + 1)

/-- Only the tile's number mod 4 matters. -/
theorem tileN_congr (c : Dev nD) (p : Fin 4) {a b : ℕ} (h : a % 4 = b % 4) : tileN m c p a = tileN m c p b := by
  unfold tileN
  exact congrArg (tileSum (arrE m c) (arrTh m c) (arrP m c) p) (Fin.ext h)

theorem partialSum_three (c : Dev nD) (p : Fin 4) :
    partialSum m c p 3 = groupSum (arrE m c) (arrTh m c) (arrP m c) p := rfl

/-- The sum of the losses of point `t`'s blocks is the sum of tile `t % 4` of group `t / 4`. -/
theorem blockSum_point (c : Dev nD) (t : Fin cfg0.N) :
    blockSum (iblk m c 0 t) (iblk m c 1 t) (iblk m c 2 t)
      = tileN m c ⟨t.val / 4, by have := pt_lt t; omega⟩ t.val := by
  unfold blockSum tileN tileSum cell
  refine Finset.sum_congr rfl fun b _ => Finset.sum_congr rfl fun r _ => Finset.sum_congr rfl fun l _ => ?_
  rw [iblk0_apply]
  simp only [iblk1_apply, iblk2_apply]
  have e : t.val % 4 % 4 = t.val % 4 := Nat.mod_mod _ _
  congr 2

theorem chain_first (c : Dev nD) (n : ℕ) (h : n < cfg0.N) (h0 : n % 4 = 0) :
    chain m c n h = upd (iblk m c 0 ⟨n, h⟩) (iblk m c 1 ⟨n, h⟩) (iblk m c 2 ⟨n, h⟩) (k0_pay2 (F := Ideal)) := by
  cases n with
  | zero => rfl
  | succ n => simp only [chain, if_pos h0]

theorem chain_next (c : Dev nD) (n : ℕ) (h : n + 1 < cfg0.N) (h0 : ¬(n + 1) % 4 = 0) :
    chain m c (n + 1) h = upd (iblk m c 0 ⟨n + 1, h⟩) (iblk m c 1 ⟨n + 1, h⟩) (iblk m c 2 ⟨n + 1, h⟩)
      (chain m c n (Nat.lt_of_succ_lt h)) := by
  simp only [chain, if_neg h0]

/-- The value of `upd` at the ideal instance: the block found plus the blocks' sum, in every entry. -/
theorem upd_eq (x0 : Vec Ideal S16x128x256 .f32) (x1 : Vec Ideal S16x8x128 .f32) (x2 : Vec Ideal S16x8x256 .f32)
    (prev : Vec Ideal S1x8x128 .f32) : upd x0 x1 x2 prev = fun i => prev i + blockSum x0 x1 x2 :=
  Body.accumulate x0 x1 x2 prev

/-- Every entry of the running block after point `n` is the partial sum of its group up to its tile. -/
theorem chain_eq (c : Dev nD) : ∀ (n : ℕ) (h : n < cfg0.N),
    chain m c n h = fun _ => partialSum m c ⟨n / 4, by have := lt_of_lt_of_eq h (show cfg0.N = 16 from N_0); omega⟩ (n % 4)
  | 0, h => by
    rw [chain_first m c 0 h rfl, upd_eq, Body.start]
    funext i
    show zero + blockSum _ _ _ = zero + tileN m c _ 0
    rw [blockSum_point m c ⟨0, h⟩]
  | n + 1, h => by
    have hN : n + 1 < 16 := lt_of_lt_of_eq h (show cfg0.N = 16 from N_0)
    by_cases h0 : (n + 1) % 4 = 0
    · rw [chain_first m c (n + 1) h h0, upd_eq, Body.start]
      funext i
      rw [blockSum_point m c ⟨n + 1, h⟩]
      show zero + tileN m c _ (n + 1) = partialSum m c _ ((n + 1) % 4)
      rw [h0]
      show _ = zero + tileN m c _ 0
      rw [tileN_congr m c _ (show (n + 1) % 4 = 0 % 4 by rw [h0])]
    · rw [chain_next m c n h h0, upd_eq, chain_eq c n (Nat.lt_of_succ_lt h)]
      funext i
      rw [blockSum_point m c ⟨n + 1, h⟩]
      have e1 : (n + 1) % 4 = n % 4 + 1 := by omega
      have e2 : (⟨n / 4, by omega⟩ : Fin 4) = ⟨(n + 1) / 4, by omega⟩ := Fin.ext (by show n / 4 = (n + 1) / 4; omega)
      show partialSum m c ⟨n / 4, _⟩ (n % 4) + tileN m c ⟨(n + 1) / 4, _⟩ (n + 1) = partialSum m c ⟨(n + 1) / 4, _⟩ ((n + 1) % 4)
      rw [e1, ← e2]
      show _ = partialSum m c ⟨n / 4, _⟩ (n % 4) + tileN m c ⟨n / 4, _⟩ (n % 4 + 1)
      rw [tileN_congr m c _ (show (n + 1) % 4 = (n % 4 + 1) % 4 by omega)]

end Cert.Focal.Kernel

end
-- ==== Proof.Output.lean ====
/-
  The output array after the run. The output block of batch group `p` is written back once, after the group's last
  tile, and then holds the group's sum in every entry; the four blocks tile the 4 x 8 x 128 array, so the array ends
  holding, at (p, s, l), the sum of group `p`.
-/
import proofs.«139907_j13640816132153_2_alg».proof.Proof.Running

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Focal.Kernel

open Cert.KernelIdeal Cert.KernelIdeal.Gen Cert.Focal

variable (m : (ℓ : Loc nD τ sig) → Buf (Elt Ideal) ℓ)

/-- What the output array ends holding: at (p, s, l) the sum of batch group `p`. -/
def outArr (c : Dev nD) : S4x8x128.Idx → EReal :=
  fun j => groupSum (arrE m c) (arrTh m c) (arrP m c) (j 0)

/-- What a flushing point writes back is its block of `outArr`. -/
theorem flushed_eq (c : Dev nD) (t : Fin cfg0.N) (hf : (cfg0.win 3).flush t = true) :
    (dats m 0 c).flushed 3 t = ((cfg0.win 3).blk t).view.read (Elt Ideal) (outArr m c) := by
  have h3 : t.val % 4 = 3 := (flush0_3 t).mp hf
  have hN : t.val < 16 := pt_lt t
  show (cfg0.win 3).cut (grid0.coords t) ((dats m 0 c).after 3 t) = _
  rw [after0_3, outsAt_out m c t.val t.isLt h3, chain_eq]
  funext y
  rw [View.read_apply]
  show partialSum m c ⟨t.val / 4, _⟩ (t.val % 4) = outArr m c (((cfg0.win 3).blk t).view.emb y)
  unfold outArr
  rw [h3, partialSum_three]
  congr 1
  apply Fin.ext
  show t.val / 4 = win0_3.index t 0 * 1 + 1 * (y 0).val
  have hy : (y 0).val < 1 := (y 0).isLt
  rw [(idx_facts t).2.2.2.1]
  omega

/-- An index of the array is in point `t`'s block iff each coordinate is in the block's range on its axis. -/
theorem mem_blk (t : Fin cfg0.N) (i : S4x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v45).slice (win0_3.rect t)).set ↔ _
  rw [View.set_slice_whole, Rect.mem_set_unit]
  exact Iff.rfl

/-- The array after the run. -/
theorem final_out (c : Dev nD) : (dats m 0 c).arrAt 3 cfg0.N = outArr m c :=
  (dats m 0 c).arrAt_eq_of_cover 3 (outArr m c) (flushed_eq m c) fun i => by
    have h0 : (i 0).val < 4 := (i 0).isLt
    have h1 : (i 1).val < 8 := (i 1).isLt
    have h2 : (i 2).val < 128 := (i 2).isLt
    refine ⟨⟨4 * (i 0).val + 3, by rw [show cfg0.N = 16 from N_0]; omega⟩, (flush0_3 _).mpr (by show (4 * (i 0).val + 3) % 4 = 3; omega), ?_⟩
    rw [mem_blk]
    obtain ⟨-, -, -, e0, e1, e2⟩ := idx_facts (⟨4 * (i 0).val + 3, by rw [show cfg0.N = 16 from N_0]; omega⟩ : Fin cfg0.N)
    intro a
    match a with
    | ⟨0, _⟩ =>
      show win0_3.index _ 0 * 1 ≤ (i 0).val ∧ (i 0).val < win0_3.index _ 0 * 1 + 1
      rw [e0]; show (4 * (i 0).val + 3) / 4 * 1 ≤ (i 0).val ∧ (i 0).val < (4 * (i 0).val + 3) / 4 * 1 + 1; omega
    | ⟨1, _⟩ =>
      show win0_3.index _ 1 * 8 ≤ (i 1).val ∧ (i 1).val < win0_3.index _ 1 * 8 + 8
      rw [e1]; omega
    | ⟨2, _⟩ =>
      show win0_3.index _ 2 * 128 ≤ (i 2).val ∧ (i 2).val < win0_3.index _ 2 * 128 + 128
      rw [e2]; omega

end Cert.Focal.Kernel

end
-- ==== Proof.Tail.lean ====
/-
  The host operations after the region, as one function of the output array: entry (p, 0, 0) of each of the four
  batch groups is taken, the four are summed from zero, and the sum is divided by the number of cells.
-/
import proofs.«139907_j13640816132153_2_alg».proof.Proof.Gen.KernelIdeal
import proofs.«139907_j13640816132153_2_alg».proof.Proof.Spec
import Idealize.ShloMosaic.Lib.Pipeline.Value
import Idealize.ShloMosaic.PureOps.Ideal.Laws

noncomputable section

open scoped BigOperators
open Idealize.ShloMosaic Idealize.ShloMosaic.ValueIdx

namespace Cert.Focal.Kernel

open Cert.KernelIdeal Cert.KernelIdeal.Gen

/-- The operations after the region, applied to the output array `O`. -/
def tail (O : S4x8x128.Idx → EReal) : S_.Idx → EReal :=
  Host.divf (F := Ideal) (φ := .f32)
    (Host.reduceAdd (F := Ideal) (φ := .f32)
      (shapeCast S4 (extractStridedSlice S4x1x1 ![0, 0, 0] O slices_S4x8x128_S4x1x1_0_0_0) shapeCasts_S4x1x1_S4)
      (constant (F := Ideal) S_ .f32 0x00000000#32) reducesTo_S4_S_d0 h_S_)
    (constant (F := Ideal) S_ .f32 0x4B000000#32)

/-- A sum over the rank-1 index set of extent 4 is the sum over its coordinate. -/
theorem sum_idx1 (f : S4.Idx → EReal) : ∑ j : S4.Idx, f j = ∑ p : Fin 4, f (ix1 p) :=
  Fintype.sum_equiv ⟨fun j => j 0, fun p => ix1 p, fun j => (eq_ix1 j).symm, fun _ => rfl⟩ _ _
    fun j => congrArg f (eq_ix1 j)

/-- The reshaped slice at group `p` is the output array at (p, 0, 0). -/
theorem picked_apply (O : S4x8x128.Idx → EReal) (p : Fin 4) :
    shapeCast S4 (extractStridedSlice S4x1x1 ![0, 0, 0] O slices_S4x8x128_S4x1x1_0_0_0) shapeCasts_S4x1x1_S4 (ix1 p)
      = O (ix3 p (0 : Fin 8) (0 : Fin 128)) := by
  rw [shapeCast_apply _ shapeCasts_S4x1x1_S4 (ix1 p) (ix3 p (0 : Fin 1) (0 : Fin 1)) (by
    rw [Shape.rowMajor_val_three, Shape.rowMajor_val_one]; simp)]
  exact extractStridedSlice_apply ![0, 0, 0] O slices_S4x8x128_S4x1x1_0_0_0 _ (ix3 p (0 : Fin 8) (0 : Fin 128)) (fun a =>
    match a with
    | ⟨0, _⟩ => by show p.val = 0 + p.val; omega
    | ⟨1, _⟩ => by show 0 = 0 + 0; rfl
    | ⟨2, _⟩ => by show 0 = 0 + 0; rfl)

/-- The result from an output array whose entry (p, 0, 0) is `g p`. -/
theorem tail_apply (O : S4x8x128.Idx → EReal) (g : Fin 4 → EReal) (hO : ∀ p : Fin 4, O (ix3 p (0 : Fin 8) (0 : Fin 128)) = g p)
    (i : S_.Idx) : tail O i = Ideal.div (zero + ∑ p : Fin 4, g p) count := by
  unfold tail
  show Ideal.div (Host.reduceAdd (F := Ideal) (φ := .f32) _ _ reducesTo_S4_S_d0 h_S_ i) (Ideal.ofBits .f32 0x4B000000#32) = _
  simp only [Host.reduceAdd, Ideal.hostReduceAdd_def]
  rw [Ideal.hostReduceAdd_total reducesTo_S4_S_d0 (fun b => b.elim0), sum_idx1]
  simp only [picked_apply, hO]
  rfl

end Cert.Focal.Kernel

end
-- ==== Proof.HostFactors.lean ====
/-
  The three arrays the program forms before the tiled region, as functions of their operands: the first angle's factor
  is the exponential of minus half the squared distance, kept where the source mask is set and zero elsewhere; the
  second angle's factor is the exponential of minus half the squared distance; the prediction is the heat map with its
  unit channel axis dropped.  Each is the composed host operations read at an index.
-/
import proofs.«139907_j13640816132153_2_alg».proof.Proof.Gen.KernelIdeal
import proofs.«139907_j13640816132153_2_alg».proof.Proof.Spec
import Idealize.ShloMosaic.Lib.ValueIdx
import Idealize.ShloMosaic.Lib.Pipeline.Value
import Idealize.ShloMosaic.Lib.ValueLayout

noncomputable section

namespace Cert.Focal.Host

open Idealize.ShloMosaic Idealize.ShloMosaic.ValueIdx
open Cert.KernelIdeal Cert.KernelIdeal.Gen Cert.Focal

/-- THE FIRST FACTOR: the mask of a (batch row, source) pair spread along the first angle selects between the exponential
    of minus half the squared distance and the zero splat. -/
theorem first_factor (d : FVec Ideal S64x8x512 .f32) (mk : IVec S64x8 1)
    (h1 : S64x8x1.BroadcastsInDim S64x8x512 (![0, 1, 2] : Fin 3 → Fin S64x8x512.rank))
    (h2 : S64x8.BroadcastsInDim S64x8x1 (![0, 1] : Fin 2 → Fin S64x8x1.rank))
    (h3 : S_.BroadcastsInDim S64x8x512 (![] : Fin 0 → Fin S64x8x512.rank)) :
    select (broadcastInDim S64x8x512 (![0, 1, 2] : Fin 3 → Fin S64x8x512.rank) h1
          (broadcastInDim S64x8x1 (![0, 1] : Fin 2 → Fin S64x8x1.rank) h2 mk))
        (Host.exp (F := Ideal)
          (mulf (broadcastInDim S64x8x512 (![] : Fin 0 → Fin S64x8x512.rank) h3 (constant (F := Ideal) S_ .f32 0xBF000000#32)) d))
        (broadcastInDim S64x8x512 (![] : Fin 0 → Fin S64x8x512.rank) h3 (id (constant (F := Ideal) S_ .f32 0x00000000#32)))
      = ephi d mk := by
  funext i
  obtain ⟨a, k, g, rfl⟩ : ∃ (a : Fin 64) (k : Fin 8) (g : Fin 512), i = ix3 a k g := ⟨i 0, i 1, i 2, eq_ix3 i⟩
  rw [select_apply,
    broadcastInDim_apply _ h1 _ (ix3 a k g) (ix3 a k (0 : Fin 1)) (fun ax => by
      match ax with
      | ⟨0, _⟩ => rfl
      | ⟨1, _⟩ => rfl
      | ⟨2, _⟩ => rfl),
    broadcastInDim_apply _ h2 mk (ix3 a k (0 : Fin 1)) (ix2 a k) (fun ax => by
      match ax with
      | ⟨0, _⟩ => rfl
      | ⟨1, _⟩ => rfl)]
  rfl

/-- THE SECOND FACTOR: the exponential of minus half the squared distance. -/
theorem second_factor (d : FVec Ideal S64x8x256 .f32)
    (h : S_.BroadcastsInDim S64x8x256 (![] : Fin 0 → Fin S64x8x256.rank)) :
    Host.exp (F := Ideal)
        (mulf (broadcastInDim S64x8x256 (![] : Fin 0 → Fin S64x8x256.rank) h (constant (F := Ideal) S_ .f32 0xBF000000#32)) d)
      = etheta d := by
  funext i
  rfl

/-- THE PREDICTION: the (64 x 1 x 512 x 256) heat map reshaped to (64 x 512 x 256) reads, at (b, g, h), the heat map at
    (b, 0, g, h): the two indices have the same row-major position. -/
theorem prediction (x : FVec Ideal S64x1x512x256 .f32) (h : S64x1x512x256.ShapeCasts S64x512x256) :
    shapeCast S64x512x256 x h = squeeze x := by
  funext j
  obtain ⟨b, g, l, rfl⟩ : ∃ (b : Fin 64) (g : Fin 512) (l : Fin 256), j = ix3 b g l := ⟨j 0, j 1, j 2, eq_ix3 j⟩
  refine (shapeCast_apply x h (ix3 b g l) (ix4 b (0 : Fin 1) g l) ?_).trans rfl
  rw [Shape.rowMajor_val_four, Shape.rowMajor_val_three]
  show ((b.val * 1 + 0) * 512 + g.val) * 256 + l.val = (b.val * 512 + g.val) * 256 + l.val
  omega

end Cert.Focal.Host

end
-- ==== Proof.HostPrefix.lean ====
/-
  The three arrays the region stages, as the host operations before it leave them. Both programs compute the squared
  scaled distances along the two angles and the source mask by the same operations of the same arguments; the kernel's
  host part then forms the masked first factor (the exponential of minus half the squared distance, zero where the
  source is masked), the second factor (the same exponential along the second angle) and drops the prediction's unit
  channel axis.
-/
import proofs.«139907_j13640816132153_2_alg».proof.Proof.Gen.KernelIdeal.Frame
import proofs.«139907_j13640816132153_2_alg».proof.Proof.Gen.ReferenceIdeal.Read
import proofs.«139907_j13640816132153_2_alg».proof.Proof.HostFactors
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx Idealize.ShloMosaic.StableHlo

namespace Cert.Focal.Kernel

open Cert.KernelIdeal Cert.KernelIdeal.Gen Cert.Focal

variable (m : (ℓ : Loc nD τ sig) → Buf (Elt Ideal) ℓ)

/-- The squared scaled distances along the first angle, of the arguments. -/
abbrev dPhi (c : Dev nD) : (⟨3, ![64, 8, 512]⟩ : Shape).Idx → EReal :=
  Cert.ReferenceIdeal.Read.val_main_v21 (F := Ideal) (m ((c.tc : Thread nD τ).loc main_arg1)) (m ((c.tc : Thread nD τ).loc main_arg3))
/-- The squared scaled distances along the second angle, of the arguments. -/
abbrev dTheta (c : Dev nD) : (⟨3, ![64, 8, 256]⟩ : Shape).Idx → EReal :=
  Cert.ReferenceIdeal.Read.val_main_v29 (F := Ideal) (m ((c.tc : Thread nD τ).loc main_arg2)) (m ((c.tc : Thread nD τ).loc main_arg4))
/-- The source mask, of the source counts. -/
abbrev srcMask (c : Dev nD) : (⟨2, ![64, 8]⟩ : Shape).Idx → BitVec 1 :=
  Cert.ReferenceIdeal.Read.val_main_v43 (F := Ideal) (m ((c.tc : Thread nD τ).loc main_arg5))

/-- The prediction array the region stages is the prediction without its channel axis. -/
theorem pred_eq (c : Dev nD) :
    (V m c main_v44 : S64x512x256.Idx → EReal) = squeeze (m ((c.tc : Thread nD τ).loc main_arg0)) := by
  have e : (V m c main_v44 : S64x512x256.Idx → EReal)
      = shapeCast S64x512x256 (m ((c.tc : Thread nD τ).loc main_arg0)) shapeCasts_S64x1x512x256_S64x512x256 := by
    dsimp only [Gen.V, Gen.V0]
    simp only [Gen.hostOps0, Gen.hostOps0_1, Gen.hostOps0_2, List.flatten_cons, List.flatten_nil, List.append_nil, List.cons_append, List.nil_append]
    after_results
    rfl
  rw [e]
  exact Host.prediction _ _

set_option maxHeartbeats 8000000 in
/-- The second factor the region stages. -/
theorem second_eq (c : Dev nD) : (V m c main_v35 : S64x8x256.Idx → EReal) = etheta (dTheta m c) := by
  have e : (V m c main_v35 : S64x8x256.Idx → EReal)
      = Host.exp (F := Ideal) (mulf (broadcastInDim S64x8x256 (![] : Fin 0 → Fin S64x8x256.rank) bcast_S_S64x8x256
          (constant (F := Ideal) S_ .f32 0xBF000000#32)) (dTheta m c)) := by
    dsimp only [Gen.V, Gen.V0]
    simp only [Gen.hostOps0, Gen.hostOps0_1, Gen.hostOps0_2, List.flatten_cons, List.flatten_nil, List.append_nil, List.cons_append, List.nil_append]
    after_results
    rfl
  rw [e]
  exact Host.second_factor _ _

set_option maxHeartbeats 8000000 in
/-- The masked first factor the region stages. -/
theorem first_eq (c : Dev nD) : (V m c main_v43 : S64x8x512.Idx → EReal) = ephi (dPhi m c) (srcMask m c) := by
  have e : (V m c main_v43 : S64x8x512.Idx → EReal)
      = select (broadcastInDim S64x8x512 (![0, 1, 2] : Fin 3 → Fin S64x8x512.rank) bcast_S64x8x1_S64x8x512_0_1_2
            (broadcastInDim S64x8x1 (![0, 1] : Fin 2 → Fin S64x8x1.rank) bcast_S64x8_S64x8x1_0_1 (srcMask m c)))
          (Host.exp (F := Ideal) (mulf (broadcastInDim S64x8x512 (![] : Fin 0 → Fin S64x8x512.rank) bcast_S_S64x8x512
            (constant (F := Ideal) S_ .f32 0xBF000000#32)) (dPhi m c)))
          (broadcastInDim S64x8x512 (![] : Fin 0 → Fin S64x8x512.rank) bcast_S_S64x8x512
            (id (constant (F := Ideal) S_ .f32 0x00000000#32))) := by
    dsimp only [Gen.V, Gen.V0]
    simp only [Gen.hostOps0, Gen.hostOps0_1, Gen.hostOps0_2, List.flatten_cons, List.flatten_nil, List.append_nil, List.cons_append, List.nil_append]
    after_results
    rfl
  rw [e]
  exact Host.first_factor _ _ _ _ _

end Cert.Focal.Kernel

end
-- ==== Proof.KernelValue.lean ====
/-
  The kernel's run, read: every execution ends with the result at the mean loss of the three staged arrays — the
  masked first factor, the second factor and the prediction as the host operations before the region leave them —
  and the arguments unchanged.
-/
import proofs.«139907_j13640816132153_2_alg».proof.Proof.Output
import proofs.«139907_j13640816132153_2_alg».proof.Proof.Tail
import proofs.«139907_j13640816132153_2_alg».proof.Proof.HostPrefix

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.Focal.Kernel

open Cert.KernelIdeal Cert.KernelIdeal.Gen Cert.Focal

variable (m : (ℓ : Loc nD τ sig) → Buf (Elt Ideal) ℓ) (ρ : Dev nD → PrngReg)

/-- The result buffer after the host operations that follow the region: their function of the output array. -/
theorem result_tail (c : Dev nD) :
    Pipeline.afterTail₀ cfgs (dats m) 0 (V0 m) [hostOps1] c main_v49 = tail (outArr m c) := by
  unfold Pipeline.afterTail₀
  show StableHlo.after hostOps1 _ (Proc.devRef .tc main_v49) = _
  after_results
  have e : Pipeline.withArrays (cfgs 0).spec c (V0 m c) (fun w => (dats m 0 c).arrAt w (cfgs 0).N) (Proc.tc.devRef main_v45)
      = outArr m c :=
    (Pipeline.withArrays_arr spec0 launch0.win.arr_inj c _ _ 3).trans (final_out m c)
  show tail (Pipeline.withArrays (cfgs 0).spec c (V0 m c) (fun w => (dats m 0 c).arrAt w (cfgs 0).N) (Proc.tc.devRef main_v45)) = _
  rw [e]

/-- The mean loss of the staged arrays, the result in every execution. -/
abbrev value (c : Dev nD) : EReal :=
  meanLoss (ephi (dPhi m c) (srcMask m c)) (etheta (dTheta m c)) (squeeze (m ((c.tc : Thread nD τ).loc main_arg0)))

theorem tail_value (c : Dev nD) : tail (outArr m c) = fun _ => value m c := by
  funext i
  rw [tail_apply (outArr m c) (groupSum (arrE m c) (arrTh m c) (arrP m c)) (fun p => rfl) i]
  show meanLoss (arrE m c) (arrTh m c) (arrP m c) = _
  unfold value arrE arrTh arrP
  rw [first_eq, second_eq, pred_eq]

/-- The frame run with the result read. -/
theorem run : θ_run defs (onTc (τ := τ) (main (F := Ideal))) ⟨m, fun _ => 0, ρ⟩ fun r => ∀ c : Dev nD,
      r.2.mem ((c.tc : Thread nD τ).loc main_v49) = (fun _ => value m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v49 (Pipeline.mem_restRefs_of main_v49 (by decide) (by decide))).trans
        ((result_tail m c).trans (tail_value m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Focal.Kernel

end
-- ==== Proof.Laws.lean ====
/-
  Laws of the extended reals used to join the two programs.

  * The values of the constants: the exponent factor is -1/2, the focusing exponent is 2, the clip's bounds are reals,
    the maximum's starting word is the bottom element.
  * A number times itself is never negative (at the infinities too).
  * The exponential of -1/2 times a sum of two non-negative terms is the product of the two exponentials.
  * A mask in front of a product can be moved onto its first factor, since the masked-out value is zero.
  * A maximum over eight terms started at the bottom element is the maximum taken term after term from zero, as soon as
    the first term is not negative.
  * The clipped prediction is a real number, so its power with exponent 2 is its product with itself, and so is the
    power of its complement to one.
-/
import Idealize.ShloMosaic.PureOps.Ideal
import Idealize.ShloMosaic.PureOps.Ideal.Laws
import proofs.«139907_j13640816132153_2_alg».proof.Proof.Spec

noncomputable section

namespace Cert.Laws

open Idealize.ShloMosaic Cert.Focal

/-! ## The constants -/

theorem half_eq : half = ((-(1 / 2) : ℝ) : EReal) := by
  simp [Ideal.ofBits, Ideal.ieee]
  norm_cast
  norm_num

theorem two_eq : two = ((2 : ℝ) : EReal) := by
  simp [Ideal.ofBits, Ideal.ieee]
  norm_cast
  norm_num

theorem one_eq : one = ((1 : ℝ) : EReal) := by
  simp [Ideal.ofBits, Ideal.ieee]
  norm_cast
  norm_num

theorem zero_eq : zero = 0 := Ideal.ofBits_zero_f32

theorem lo_real : ∃ r : ℝ, lo = (r : EReal) := by
  simp [Ideal.ofBits, Ideal.ieee]
  exact ⟨_, rfl⟩

theorem hi_real : ∃ r : ℝ, hi = (r : EReal) := by
  simp [Ideal.ofBits, Ideal.ieee]
  exact ⟨_, rfl⟩

/-- The word the maximum over the sources starts from is the bottom element. -/
theorem ninf_eq : Ideal.ofBits .f32 0xFF800000#32 = (⊥ : EReal) := by
  simp [Ideal.ofBits, Ideal.ieee]

/-! ## Squares, exponentials, masks -/

/-- A number times itself is not negative: the two infinities' squares are the top element. -/
theorem mul_self_nonneg (q : EReal) : 0 ≤ q * q := by
  induction q using EReal.rec with
  | bot => simp
  | top => simp
  | coe r => exact_mod_cast _root_.mul_self_nonneg r

/-- The exponential is never negative. -/
theorem exp_nonneg (x : EReal) : 0 ≤ Ideal.exp x := by
  induction x using EReal.rec with
  | bot => simp
  | top => simp
  | coe r => rw [Ideal.exp_coe]; exact_mod_cast (Real.exp_pos r).le

/-- A masked exponential is never negative: it is the exponential or zero. -/
theorem select_exp_nonneg (c : BitVec 1) (x : EReal) : zero ≤ Scalar.select c (Ideal.exp x) zero := by
  unfold Scalar.select
  by_cases h : c = 1
  · rw [if_pos h, zero_eq]; exact exp_nonneg x
  · rw [if_neg h]

/-- For non-negative `a` and `b` the exponential of `-1/2 * (a + b)` is the product of the exponentials of
    `-1/2 * a` and `-1/2 * b`: on the reals by the exponential's law, and when either is the top element both sides
    are zero. -/
theorem exp_half_add {a b : EReal} (ha : 0 ≤ a) (hb : 0 ≤ b) :
    Ideal.exp (half * (a + b)) = Ideal.exp (half * a) * Ideal.exp (half * b) := by
  rw [half_eq]
  have hneg : (-(1 / 2) : ℝ) < 0 := by norm_num
  have hb' : b ≠ ⊥ := fun h => absurd (h ▸ hb) (not_le.mpr EReal.bot_lt_zero)
  induction a using EReal.rec with
  | bot => exact absurd ha (not_le.mpr EReal.bot_lt_zero)
  | top =>
    rw [EReal.top_add_of_ne_bot hb', EReal.coe_mul_top_of_neg hneg, Ideal.exp_bot, zero_mul]
  | coe ra =>
    induction b using EReal.rec with
    | bot => exact absurd rfl hb'
    | top =>
      rw [EReal.add_top_of_ne_bot (EReal.coe_ne_bot ra), EReal.coe_mul_top_of_neg hneg, Ideal.exp_bot, mul_zero]
    | coe rb =>
      rw [← EReal.coe_add, ← EReal.coe_mul, ← EReal.coe_mul, ← EReal.coe_mul, Ideal.exp_coe, Ideal.exp_coe,
        Ideal.exp_coe, ← EReal.coe_mul, mul_add, Real.exp_add]

/-- A mask in front of a product moves onto the first factor: the masked-out value is zero, and zero times anything
    is zero. -/
theorem select_mul (c : BitVec 1) (u v : EReal) :
    Scalar.select c (u * v) zero = Scalar.select c u zero * v := by
  unfold Scalar.select
  by_cases h : c = 1
  · rw [if_pos h, if_pos h]
  · rw [if_neg h, if_neg h, zero_eq, zero_mul]

/-! ## The maximum over the eight sources -/

/-- The maximum of eight terms, started at the bottom element, is the maximum taken term after term from any `z` that
    is not above the first term. -/
theorem fold_max_eight (w : Fin 8 → EReal) (z : EReal) (hz : z ≤ w 0) :
    (Finset.univ : Finset (Fin 8)).fold max (⊥ : EReal) w
      = max (max (max (max (max (max (max (max z (w 0)) (w 1)) (w 2)) (w 3)) (w 4)) (w 5)) (w 6)) (w 7) := by
  apply le_antisymm
  · rw [Finset.fold_max_le]
    refine ⟨bot_le, fun k _ => ?_⟩
    fin_cases k <;> simp [le_max_iff]
  · have h : ∀ k : Fin 8, w k ≤ (Finset.univ : Finset (Fin 8)).fold max (⊥ : EReal) w :=
      fun k => (Finset.le_fold_max (w k)).mpr (Or.inr ⟨k, Finset.mem_univ k, le_rfl⟩)
    exact max_le (max_le (max_le (max_le (max_le (max_le (max_le (max_le (hz.trans (h 0)) (h 0)) (h 1)) (h 2)) (h 3))
      (h 4)) (h 5)) (h 6)) (h 7)

/-! ## The clipped prediction -/

/-- The clipped prediction is a real number, whatever the prediction: it lies between the two real bounds. -/
theorem clip_real (x : EReal) : ∃ r : ℝ, clip x = (r : EReal) := by
  obtain ⟨l, hl⟩ := lo_real
  obtain ⟨u, hu⟩ := hi_real
  have h1 : clip x ≠ ⊥ := by
    unfold clip
    rw [hl, hu]
    intro h
    rcases min_eq_bot.mp h with h | h
    · exact EReal.coe_ne_bot u h
    · rcases max_eq_bot.mp h with ⟨h, _⟩
      exact EReal.coe_ne_bot l h
  have h2 : clip x ≠ ⊤ := by
    unfold clip
    rw [hu]
    exact ne_top_of_le_ne_top (EReal.coe_ne_top u) (min_le_left _ _)
  induction hx : clip x using EReal.rec with
  | bot => exact absurd hx h1
  | top => exact absurd hx h2
  | coe r => exact ⟨r, rfl⟩

/-- A real number to the exponent 2 is its product with itself. -/
theorem pow_two_coe (r : ℝ) : Ideal.pow (r : EReal) two = (r : EReal) * (r : EReal) := by
  rw [two_eq, Ideal.pow_coe_coe, ← EReal.coe_mul, Real.rpow_eq_pow, Real.rpow_two, sq]

/-- The clipped prediction to the exponent 2. -/
theorem pow_clip (x : EReal) : Ideal.pow (clip x) two = clip x * clip x := by
  obtain ⟨r, hr⟩ := clip_real x
  rw [hr, pow_two_coe]

/-- The clipped prediction's complement to one, to the exponent 2. -/
theorem pow_one_sub_clip (x : EReal) : Ideal.pow (one - clip x) two = (one - clip x) * (one - clip x) := by
  obtain ⟨r, hr⟩ := clip_real x
  rw [hr, one_eq, ← EReal.coe_sub, pow_two_coe]

/-- Zero minus a number is its negation. -/
theorem zero_sub_eq (y : EReal) : zero - y = -y := by
  rw [zero_eq, zero_sub]

end Cert.Laws

end
-- ==== Proof.RefCell.lean ====
/-
  The reference program's loss of one cell.

  The reference computes, for each cell (b, g, h), the target as the maximum over the eight sources k of the masked
  exponential of -1/2 times the SUM of the two squared distances, started at the bottom element; the specification
  takes the maximum, from zero, of the PRODUCT of the masked exponential along the first angle and the exponential along
  the second. The two agree: the squared distances are not negative, so the exponential of the sum splits; the mask
  moves onto the first factor; and the first term is not negative, so starting from zero changes nothing.
  With the target in hand the cell's loss is the specification's: the clipped prediction is a real number, so its
  power with exponent 2 is its product with itself.
-/
import proofs.«139907_j13640816132153_2_alg».proof.Proof.Gen.ReferenceIdeal.Read
import proofs.«139907_j13640816132153_2_alg».proof.Proof.Spec
import proofs.«139907_j13640816132153_2_alg».proof.Proof.Laws

noncomputable section

namespace Cert.Focal.Ref

open Cert.ReferenceIdeal Cert.ReferenceIdeal.Gen Cert.ReferenceIdeal.Read Cert.Focal Cert.Laws
open Idealize.ShloMosaic Idealize.ShloMosaic.ValueIdx

variable (x0 : (⟨S64x1x512x256, .f32⟩ : BufTy).Contents (Elt Ideal)) (x1 x2 : (⟨S64x8, .f32⟩ : BufTy).Contents (Elt Ideal))
  (x3 : (⟨S512, .f32⟩ : BufTy).Contents (Elt Ideal)) (x4 : (⟨S256, .f32⟩ : BufTy).Contents (Elt Ideal))
  (x5 : (⟨S64, .i32⟩ : BufTy).Contents (Elt Ideal))

/-- The squared distance along the first angle is a product of a number with itself, so it is not negative. -/
theorem v21_nonneg (i : S64x8x512.Idx) : (0 : EReal) ≤ val_main_v21 (F := Ideal) x1 x3 i := by
  rw [val_main_v21_apply]
  exact mul_self_nonneg _

/-- The squared distance along the second angle likewise. -/
theorem v29_nonneg (i : S64x8x256.Idx) : (0 : EReal) ≤ val_main_v29 (F := Ideal) x2 x4 i := by
  rw [val_main_v29_apply]
  exact mul_self_nonneg _

/-- The masked blob of source `k` at cell (b, g, h): the exponential of -1/2 times the sum of the two squared
    distances where the source counts, zero where it does not. -/
theorem v45_at (b : Fin 64) (k : Fin 8) (g : Fin 512) (h : Fin 256) :
    val_main_v45 (F := Ideal) x1 x2 x3 x4 x5 (ix4 b k g h)
      = Scalar.select (val_main_v43 (F := Ideal) x5 (ix2 b k))
          (Ideal.exp (half * (val_main_v21 (F := Ideal) x1 x3 (ix3 b k g) + val_main_v29 (F := Ideal) x2 x4 (ix3 b k h))))
          zero := by
  have e1 : idx_main_v44 (idx_main_call0_v1 (ix4 b k g h)) = ix2 b k := by
    funext a; match a with | ⟨0, _⟩ => rfl | ⟨1, _⟩ => rfl
  have e2 : idx_main_v30 (idx_main_v32 (ix4 b k g h)) = ix3 b k g := by
    funext a; match a with | ⟨0, _⟩ => rfl | ⟨1, _⟩ => rfl | ⟨2, _⟩ => rfl
  have e3 : idx_main_v31 (idx_main_v33 (ix4 b k g h)) = ix3 b k h := by
    funext a; match a with | ⟨0, _⟩ => rfl | ⟨1, _⟩ => rfl | ⟨2, _⟩ => rfl
  rw [val_main_v45_apply, val_main_call0_v1_apply, val_main_v44_apply, val_main_call0_v2_apply, val_main_call0_v0_apply,
    val_main_cst_4_apply, val_main_v37_apply, val_main_v36_apply, val_main_v35_apply, val_main_cst_3_apply,
    val_main_v34_apply, val_main_v32_apply, val_main_v30_apply, val_main_v33_apply, val_main_v31_apply, e1, e2, e3]
  rfl

/-- The same blob as the product of the two factors of the specification. -/
theorem v45_mul (b : Fin 64) (k : Fin 8) (g : Fin 512) (h : Fin 256) :
    val_main_v45 (F := Ideal) x1 x2 x3 x4 x5 (ix4 b k g h)
      = ephi (val_main_v21 (F := Ideal) x1 x3) (val_main_v43 (F := Ideal) x5) (ix3 b k g)
          * etheta (val_main_v29 (F := Ideal) x2 x4) (ix3 b k h) := by
  rw [v45_at, exp_half_add (v21_nonneg x1 x3 _) (v29_nonneg x2 x4 _), select_mul]
  rfl

/-- Dropping the source axis of a [64, 8, 512, 256] array leaves a [64, 512, 256] one. -/
theorem reduces46 : S64x8x512x256.Reduces [1] S64x512x256 := by decide

/-- The index over cell (b, g, h) with source `k` inserted. -/
theorem lift46 (b : Fin 64) (g : Fin 512) (h : Fin 256) (k : Fin 8) :
    reduces46.lift (ix3 b g h) k = ix4 b k g h := by
  funext c
  apply Fin.ext
  match c with
  | ⟨0, _⟩ => rfl
  | ⟨1, _⟩ => rfl
  | ⟨2, _⟩ => rfl
  | ⟨3, _⟩ => rfl

/-- The maximum over the source axis, started at the bottom element, of an array at cell `j`: the eight terms one after
    the other, from any `z` not above the first. -/
theorem fold46 (w : S64x8x512x256.Idx → EReal) (j : S64x512x256.Idx) (z : EReal)
    (hz : z ≤ w (reduces46.lift j (0 : Fin 8))) :
    Finset.fold (FloatOps.maximumf (F := Ideal) (φ := .f32)) (Ideal.ofBits .f32 0xFF800000#32)
        (w ∘ reduces46.lift j) Finset.univ
      = max (max (max (max (max (max (max (max z (w (reduces46.lift j (0 : Fin 8)))) (w (reduces46.lift j (1 : Fin 8))))
          (w (reduces46.lift j (2 : Fin 8)))) (w (reduces46.lift j (3 : Fin 8)))) (w (reduces46.lift j (4 : Fin 8))))
          (w (reduces46.lift j (5 : Fin 8)))) (w (reduces46.lift j (6 : Fin 8)))) (w (reduces46.lift j (7 : Fin 8))) := by
  rw [ninf_eq]
  exact fold_max_eight (fun k => w (reduces46.lift j k)) z hz

theorem v46_at (b : Fin 64) (g : Fin 512) (h : Fin 256) :
    val_main_v46 (F := Ideal) x1 x2 x3 x4 x5 (ix3 b g h)
      = peak (fun k => ephi (val_main_v21 (F := Ideal) x1 x3) (val_main_v43 (F := Ideal) x5) (ix3 b k g))
          (fun k => etheta (val_main_v29 (F := Ideal) x2 x4) (ix3 b k h)) := by
  unfold val_main_v46
  refine (Host.reduce_eq_fold_single FloatOps.maximumf _ _ reducesTo_S64x8x512x256_S64x512x256_d1 reduces46 h_S_
    (ix3 b g h)).trans ?_
  have hz : zero ≤ val_main_v45 (F := Ideal) x1 x2 x3 x4 x5 (reduces46.lift (ix3 b g h) (0 : Fin 8)) := by
    rw [lift46, v45_at]
    exact select_exp_nonneg _ _
  rw [val_main_cst_5_apply]
  refine (fold46 _ _ zero hz).trans ?_
  simp only [lift46, v45_mul, peak]

/-- The clipped prediction at an index. -/
theorem v48_at (i : S64x1x512x256.Idx) : val_main_v48 (F := Ideal) x0 i = clip (x0 i) := by
  rw [val_main_v48_apply, val_main_call1_v4_apply, val_main_call1_v3_apply, val_main_cst_7_apply,
    val_main_call1_v2_apply, val_main_call1_v1_apply, val_main_call1_v0_apply, val_main_cst_6_apply]
  rfl

/-- The reference's target, broadcast back over the unit channel axis, at cell (b, g, h). -/
theorem v47_at (b : Fin 64) (g : Fin 512) (h : Fin 256) :
    val_main_v47 (F := Ideal) x1 x2 x3 x4 x5 (ix4 b (0 : Fin 1) g h)
      = peak (fun k => ephi (val_main_v21 (F := Ideal) x1 x3) (val_main_v43 (F := Ideal) x5) (ix3 b k g))
          (fun k => etheta (val_main_v29 (F := Ideal) x2 x4) (ix3 b k h)) := by
  have e : idx_main_v47 (ix4 b (0 : Fin 1) g h) = ix3 b g h := by
    funext a; match a with | ⟨0, _⟩ => rfl | ⟨1, _⟩ => rfl | ⟨2, _⟩ => rfl
  rw [val_main_v47_apply, e, v46_at]

/-- The first summand of the reference's loss at an index, in terms of the clipped prediction and the target. -/
theorem v57_at (i : S64x1x512x256.Idx) :
    val_main_v57 (F := Ideal) x0 x1 x2 x3 x4 x5 i
      = qa * Ideal.pow (one - clip (x0 i)) two * val_main_v47 (F := Ideal) x1 x2 x3 x4 x5 i * Ideal.log (clip (x0 i)) := by
  rw [val_main_v57_apply, val_main_v55_apply, val_main_v54_apply, val_main_v53_apply, val_main_cst_10_apply,
    val_main_v52_apply, val_main_v50_apply, val_main_v49_apply, val_main_cst_8_apply, val_main_v51_apply,
    val_main_cst_9_apply, val_main_v56_apply, v48_at]
  rfl

/-- The second summand likewise. -/
theorem v67_at (i : S64x1x512x256.Idx) :
    val_main_v67 (F := Ideal) x0 x1 x2 x3 x4 x5 i
      = qb * Ideal.pow (clip (x0 i)) two * (one - val_main_v47 (F := Ideal) x1 x2 x3 x4 x5 i)
          * Ideal.log1p (-(clip (x0 i))) := by
  rw [val_main_v67_apply, val_main_v64_apply, val_main_v61_apply, val_main_v60_apply, val_main_cst_12_apply,
    val_main_v59_apply, val_main_v58_apply, val_main_cst_11_apply, val_main_v63_apply, val_main_v62_apply,
    val_main_cst_13_apply, val_main_v66_apply, val_main_v65_apply, v48_at]
  rfl

/-- The reference's loss of cell (b, g, h) is the specification's. -/
theorem v68_at (b : Fin 64) (g : Fin 512) (h : Fin 256) :
    val_main_v68 (F := Ideal) x0 x1 x2 x3 x4 x5 (ix4 b (0 : Fin 1) g h)
      = cell (ephi (val_main_v21 (F := Ideal) x1 x3) (val_main_v43 (F := Ideal) x5))
          (etheta (val_main_v29 (F := Ideal) x2 x4)) (squeeze x0) b g h := by
  rw [val_main_v68_apply, v57_at, v67_at, v47_at, pow_one_sub_clip, pow_clip, ← zero_sub_eq]
  rfl

end Cert.Focal.Ref

end
-- ==== Proof.RefValue.lean ====
/-
  The reference program's value: the sum of the cells' losses, from zero, divided by the number of cells.
  The reference sums over every index of a [64, 1, 512, 256] array; each index is a cell with the unit channel
  coordinate, and its summand is that cell's loss.
-/
import proofs.«139907_j13640816132153_2_alg».proof.Proof.Gen.ReferenceIdeal.Read
import proofs.«139907_j13640816132153_2_alg».proof.Proof.Spec
import proofs.«139907_j13640816132153_2_alg».proof.Proof.RefCell

noncomputable section

open scoped BigOperators

namespace Cert.Focal.Ref

open Cert.ReferenceIdeal Cert.ReferenceIdeal.Gen Cert.ReferenceIdeal.Read Cert.Focal
open Idealize.ShloMosaic Idealize.ShloMosaic.ValueIdx

theorem value (x0 : (⟨S64x1x512x256, .f32⟩ : BufTy).Contents (Elt Ideal)) (x1 x2 : (⟨S64x8, .f32⟩ : BufTy).Contents (Elt Ideal))
    (x3 : (⟨S512, .f32⟩ : BufTy).Contents (Elt Ideal)) (x4 : (⟨S256, .f32⟩ : BufTy).Contents (Elt Ideal))
    (x5 : (⟨S64, .i32⟩ : BufTy).Contents (Elt Ideal)) :
    val_main_v70 (F := Ideal) x0 x1 x2 x3 x4 x5
      = fun _ => Ideal.div (zero + ∑ i : (⟨4, ![64, 1, 512, 256]⟩ : Shape).Idx,
          cell (ephi (val_main_v21 (F := Ideal) x1 x3) (val_main_v43 (F := Ideal) x5))
            (etheta (val_main_v29 (F := Ideal) x2 x4)) (squeeze x0) (i 0) (i 2) (i 3)) count := by
  funext j
  rw [val_main_v70_apply, val_main_v69_apply, val_main_cst_14_apply, val_main_cst_15_apply]
  have hs : ∀ i : S64x1x512x256.Idx, val_main_v68 (F := Ideal) x0 x1 x2 x3 x4 x5 i
      = cell (ephi (val_main_v21 (F := Ideal) x1 x3) (val_main_v43 (F := Ideal) x5))
          (etheta (val_main_v29 (F := Ideal) x2 x4)) (squeeze x0) (i 0) (i 2) (i 3) := by
    intro i
    obtain ⟨a, b, c, d, rfl⟩ : ∃ a b c d, i = ix4 a b c d := ⟨i 0, i 1, i 2, i 3, eq_ix4 i⟩
    obtain rfl : b = 0 := Subsingleton.elim _ _
    exact v68_at x0 x1 x2 x3 x4 x5 a c d
  rw [Finset.sum_congr rfl fun i _ => hs i]
  rfl

end Cert.Focal.Ref

end
-- ==== Proof.Sums.lean ====
/-
  The regrouping of the sum of the cells' losses.  The kernel adds the cells in four batch groups of sixteen rows,
  each group in four tiles of 128 rows of the first angle, a group's four tile sums one after the other from zero;
  the reference adds all the cells of the (64 x 1 x 512 x 256) array at once.  In a commutative monoid the two are
  the same sum: the index set of the array is the product of its three non-unit coordinate ranges, 64 = 4 x 16 and
  512 = 4 x 128 split the first two, and the order of the finite sums is free.
-/
import proofs.«139907_j13640816132153_2_alg».proof.Proof.Spec
import Idealize.ShloMosaic.PureOps.Ideal.Laws

noncomputable section

open scoped BigOperators

namespace Cert.Focal

open Idealize.ShloMosaic Idealize.ShloMosaic.ValueIdx

/-- A rank-4 index set whose second axis has one element is the product of its three other coordinate ranges … -/
def idxEquiv4 {n0 n2 n3 : Nat} : (⟨4, ![n0, 1, n2, n3]⟩ : Shape).Idx ≃ Fin n0 × Fin n2 × Fin n3 where
  toFun i := (i 0, i 2, i 3)
  invFun q := ix4 q.1 (0 : Fin 1) q.2.1 q.2.2
  left_inv i := by
    have hlt : (i 1).val < 1 := (i 1).isLt
    funext a
    match a with
    | ⟨0, _⟩ => rfl
    | ⟨1, _⟩ => exact Fin.ext (by show 0 = (i 1).val; omega)
    | ⟨2, _⟩ => rfl
    | ⟨3, _⟩ => rfl
  right_inv _ := rfl

/-- … so a sum over it of a function of those three coordinates is the triple sum over them. -/
theorem sum_idx4 {M : Type*} [AddCommMonoid M] {n0 n2 n3 : Nat} (f : Fin n0 → Fin n2 → Fin n3 → M) :
    ∑ i : (⟨4, ![n0, 1, n2, n3]⟩ : Shape).Idx, f (i 0) (i 2) (i 3) = ∑ a : Fin n0, ∑ c : Fin n2, ∑ d : Fin n3, f a c d := by
  rw [← Equiv.sum_comp (idxEquiv4 (n0 := n0) (n2 := n2) (n3 := n3)).symm
    (fun i : (⟨4, ![n0, 1, n2, n3]⟩ : Shape).Idx => f (i 0) (i 2) (i 3)), Fintype.sum_prod_type]
  refine Finset.sum_congr rfl fun a _ => ?_
  rw [Fintype.sum_prod_type]
  rfl

/-- The sixty-four batch rows are four groups of sixteen: row `16 p + b` is row `b` of group `p`. -/
def batchEquiv : Fin 4 × Fin 16 ≃ Fin 64 where
  toFun x := batchAt x.1 x.2
  invFun a := (⟨a.val / 16, by omega⟩, ⟨a.val % 16, by omega⟩)
  left_inv x := by
    obtain ⟨p, b⟩ := x
    refine Prod.ext (Fin.ext ?_) (Fin.ext ?_)
    · show (16 * p.val + b.val) / 16 = p.val
      omega
    · show (16 * p.val + b.val) % 16 = b.val
      omega
  right_inv a := Fin.ext (by
    show 16 * (a.val / 16) + a.val % 16 = a.val
    omega)

/-- The 512 rows of the first angle are four tiles of 128: row `128 t + r` is row `r` of tile `t`. -/
def phiEquiv : Fin 4 × Fin 128 ≃ Fin 512 where
  toFun x := phiAt x.1 x.2
  invFun a := (⟨a.val / 128, by omega⟩, ⟨a.val % 128, by omega⟩)
  left_inv x := by
    obtain ⟨t, r⟩ := x
    refine Prod.ext (Fin.ext ?_) (Fin.ext ?_)
    · show (128 * t.val + r.val) / 128 = t.val
      omega
    · show (128 * t.val + r.val) % 128 = r.val
      omega
  right_inv a := Fin.ext (by
    show 128 * (a.val / 128) + a.val % 128 = a.val
    omega)

/-- A sum over the batch rows, group by group. -/
theorem sum_batch {M : Type*} [AddCommMonoid M] (g : Fin 64 → M) :
    ∑ a, g a = ∑ p : Fin 4, ∑ b : Fin 16, g (batchAt p b) := by
  rw [← Equiv.sum_comp batchEquiv g, Fintype.sum_prod_type]
  rfl

/-- A sum over the rows of the first angle, tile by tile. -/
theorem sum_phi {M : Type*} [AddCommMonoid M] (g : Fin 512 → M) :
    ∑ c, g c = ∑ t : Fin 4, ∑ r : Fin 128, g (phiAt t r) := by
  rw [← Equiv.sum_comp phiEquiv g, Fintype.sum_prod_type]
  rfl

/-- One group's four tile sums, added one after the other from zero, are the sum over the group's sixteen rows of the sums
    over all the 512 x 256 cells of a row. -/
theorem group_regroup (f : Fin 64 → Fin 512 → Fin 256 → EReal) (p : Fin 4) :
    zero + (∑ b : Fin 16, ∑ r : Fin 128, ∑ l : Fin 256, f (batchAt p b) (phiAt 0 r) l)
        + (∑ b : Fin 16, ∑ r : Fin 128, ∑ l : Fin 256, f (batchAt p b) (phiAt 1 r) l)
        + (∑ b : Fin 16, ∑ r : Fin 128, ∑ l : Fin 256, f (batchAt p b) (phiAt 2 r) l)
        + (∑ b : Fin 16, ∑ r : Fin 128, ∑ l : Fin 256, f (batchAt p b) (phiAt 3 r) l)
      = ∑ b : Fin 16, ∑ c : Fin 512, ∑ d : Fin 256, f (batchAt p b) c d := by
  have hz : zero = 0 := Ideal.ofBits_zero_f32
  have h4 : ∑ t : Fin 4, ∑ b : Fin 16, ∑ r : Fin 128, ∑ l : Fin 256, f (batchAt p b) (phiAt t r) l
      = ∑ b : Fin 16, ∑ c : Fin 512, ∑ d : Fin 256, f (batchAt p b) c d := by
    rw [Finset.sum_comm]
    exact Finset.sum_congr rfl fun b _ => (sum_phi (fun c => ∑ d : Fin 256, f (batchAt p b) c d)).symm
  rw [← h4, Fin.sum_univ_four, hz, zero_add]

/-- The regrouping for an arbitrary function of the three coordinates: the groups' sums, each the four tile sums added one
    after the other from zero, add up to the sum over the whole (64 x 1 x 512 x 256) index set. -/
theorem sum_regroup_fun (f : Fin 64 → Fin 512 → Fin 256 → EReal) :
    ∑ p : Fin 4, (zero + (∑ b : Fin 16, ∑ r : Fin 128, ∑ l : Fin 256, f (batchAt p b) (phiAt 0 r) l)
        + (∑ b : Fin 16, ∑ r : Fin 128, ∑ l : Fin 256, f (batchAt p b) (phiAt 1 r) l)
        + (∑ b : Fin 16, ∑ r : Fin 128, ∑ l : Fin 256, f (batchAt p b) (phiAt 2 r) l)
        + (∑ b : Fin 16, ∑ r : Fin 128, ∑ l : Fin 256, f (batchAt p b) (phiAt 3 r) l))
      = ∑ i : (⟨4, ![64, 1, 512, 256]⟩ : Shape).Idx, f (i 0) (i 2) (i 3) := by
  rw [sum_idx4 f, sum_batch (fun a => ∑ c : Fin 512, ∑ d : Fin 256, f a c d)]
  exact Finset.sum_congr rfl fun p _ => group_regroup f p

/-- THE REGROUPING: the four groups' sums add up to the sum of all the cells' losses. -/
theorem sum_regroup (E : (⟨3, ![64, 8, 512]⟩ : Shape).Idx → EReal) (Th : (⟨3, ![64, 8, 256]⟩ : Shape).Idx → EReal)
    (P : (⟨3, ![64, 512, 256]⟩ : Shape).Idx → EReal) :
    ∑ p : Fin 4, groupSum E Th P p
      = ∑ i : (⟨4, ![64, 1, 512, 256]⟩ : Shape).Idx, cell E Th P (i 0) (i 2) (i 3) :=
  sum_regroup_fun (cell E Th P)

end Cert.Focal

end
-- ==== Proof.lean ====
/-
  The focal loss over a Gaussian heat map: the kernel against its jnp reference, at the ideal instance.

  Both programs compute, by the same host operations of the same arguments, the squared scaled distances d1 (b, k, g) of
  the grid angle g from source k's first angle and d2 (b, k, h) along the second angle, and the mask k < K (b).
  The reference forms the blob exp (-1/2 (d1 + d2)), masks it to zero, takes the maximum over the eight sources from
  minus infinity, and averages the focal loss of the clipped prediction against that target over all 64 x 512 x 256
  cells. The kernel's host part forms the two factors exp (-1/2 d1), masked, and exp (-1/2 d2); its region walks a
  4 x 4 grid (four batch groups of sixteen, four tiles of 128 of the first angle), takes the running maximum from zero
  of the products of the factors, forms the same focal loss with squares written as products, sums a tile's losses,
  carries the group's running sum in a scratch block from tile to tile and writes it out after the group's last tile;
  the host then adds the four groups' sums and divides by the number of cells.

  On the extended reals the two agree: squared distances are non-negative, so minus a half times their sum is the sum
  of two non-positive terms and the exponential of that sum is the product of the exponentials; the mask moves out of
  the product since zero times anything is zero; the products are non-negative, so the maximum from zero is the
  maximum from minus infinity; the clipped prediction is a real number strictly between zero and one, so its square
  and the square of its complement are the powers with exponent two; and sums of extended reals may be regrouped.
  The specification is in Spec.lean; the reference is read in RefCell.lean and RefValue.lean over the laws of
  Laws.lean; the kernel's body in BodyLayout.lean, BodyPeak.lean and BodyValue.lean; the pieces each control case of
  the body leaves in Pieces.lean, the running block in Chain.lean and Running.lean, the blocks' places in Blocks.lean,
  the output array in Output.lean, the host operations around the region in HostFactors.lean, HostPrefix.lean and
  Tail.lean, the kernel's run in KernelValue.lean, the regrouping of the sum in Sums.lean.
-/
import proofs.«139907_j13640816132153_2_alg».proof.Defs
import proofs.«139907_j13640816132153_2_alg».proof.Proof.Gen.Kernel
import proofs.«139907_j13640816132153_2_alg».proof.Proof.Gen.Kernel.Skeleton
import proofs.«139907_j13640816132153_2_alg».proof.Proof.Gen.Kernel.Launch
import proofs.«139907_j13640816132153_2_alg».proof.Proof.Gen.Kernel.Points
import proofs.«139907_j13640816132153_2_alg».proof.Proof.Gen.Kernel.Frame
import proofs.«139907_j13640816132153_2_alg».proof.Proof.Gen.KernelIdeal
import proofs.«139907_j13640816132153_2_alg».proof.Proof.Gen.KernelIdeal.Skeleton
import proofs.«139907_j13640816132153_2_alg».proof.Proof.Gen.KernelIdeal.Launch
import proofs.«139907_j13640816132153_2_alg».proof.Proof.Gen.KernelIdeal.Points
import proofs.«139907_j13640816132153_2_alg».proof.Proof.Gen.KernelIdeal.Frame
import proofs.«139907_j13640816132153_2_alg».proof.Proof.Gen.ReferenceIdeal
import proofs.«139907_j13640816132153_2_alg».proof.Proof.Gen.ReferenceIdeal.Run
import proofs.«139907_j13640816132153_2_alg».proof.Proof.Gen.ReferenceIdeal.Read
import proofs.«139907_j13640816132153_2_alg».proof.Proof.Gen.Pre_finite_inputs
import proofs.«139907_j13640816132153_2_alg».proof.Proof.KernelValue
import proofs.«139907_j13640816132153_2_alg».proof.Proof.RefValue
import proofs.«139907_j13640816132153_2_alg».proof.Proof.Sums
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the mean loss of the same three arrays of the arguments: the kernel by its run, the
    reference by its value and the regrouping of the sum. -/
theorem algebraic : Cert.algebraic_KernelIdeal_ReferenceIdeal := by
  intro m ρ m' ρ' _ hagree
  refine ⟨fun c => (fun _ => Cert.Focal.Kernel.value m c), Cert.Focal.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v70_eq, Cert.Focal.Ref.value, a0, a1, a2, a3, a4, a5]
  funext i
  show Ideal.div _ _ = Cert.Focal.meanLoss _ _ _
  unfold Cert.Focal.meanLoss
  rw [Cert.Focal.sum_regroup]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
